-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S256x2x512 : Shape := ⟨3, ![256, 2, 512]⟩
abbrev S256x1 : Shape := ⟨2, ![256, 1]⟩
abbrev S1536x512 : Shape := ⟨2, ![1536, 512]⟩
abbrev S1536 : Shape := ⟨1, ![1536]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S256x2x512 : S_.BroadcastsInDim S256x2x512 (![] : Fin 0 → Fin S256x2x512.rank)
  reducesTo_S256x2x512_S_d0_1_2 : S256x2x512.ReducesTo [0, 1, 2] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_

variable [Facts]

def fn_part2 {F : FTy → Type} [FloatOps F] (main_arg8 : FVec F S1536x512 .f32) (main_arg9 : FVec F S1536 .f32) (main_arg10 : FVec F S1536 .f32) (main_v33 : IVec S_ 1) : IVec S_ 1 :=
  let main_v34 : FVec F S1536x512 .f32 := Host.absf main_arg8
  let main_cst_12 : FVec F S_ .f32 := constant S_ .f32 0x7F800000#32
  let main_v35 : FVec F S1536x512 .f32 := broadcastInDim S1536x512 ![] bcast_S_S1536x512 main_cst_12
  let main_v36 : IVec S1536x512 1 := cmpf .olt main_v34 main_v35
  let main_c_13 : IVec S_ 1 := constantI S_ 1 1#1
  let main_v37 : IVec S_ 1 := (fun x v => Host.reduce IntOp.andi x v reducesTo_S1536x512_S_d0_1 h_S_) main_v36 main_c_13
  let main_v38 : IVec S_ 1 := andi main_v33 main_v37
  let main_v39 : FVec F S1536 .f32 := Host.absf main_arg9
  let main_cst_14 : FVec F S_ .f32 := constant S_ .f32 0x7F800000#32
  let main_v40 : FVec F S1536 .f32 := broadcastInDim S1536 ![] bcast_S_S1536 main_cst_14
  let main_v41 : IVec S1536 1 := cmpf .olt main_v39 main_v40
  let main_c_15 : IVec S_ 1 := constantI S_ 1 1#1
  let main_v42 : IVec S_ 1 := (fun x v => Host.reduce IntOp.andi x v reducesTo_S1536_S_d0 h_S_) main_v41 main_c_15
  let main_v43 : IVec S_ 1 := andi main_v38 main_v42
  let main_v44 : FVec F S1536 .f32 := Host.absf main_arg10
  let main_cst_16 : FVec F S_ .f32 := constant S_ .f32 0x7F800000#32
  let main_v45 : FVec F S1536 .f32 := broadcastInDim S1536 ![] bcast_S_S1536 main_cst_16
  let main_v46 : IVec S1536 1 := cmpf .olt main_v44 main_v45
  let main_c_17 : IVec S_ 1 := constantI S_ 1 1#1
  let main_v47 : IVec S_ 1 := (fun x v => Host.reduce IntOp.andi x v reducesTo_S1536_S_d0 h_S_) main_v46 main_c_17
  let main_v48 : IVec S_ 1 := andi main_v43 main_v47
  main_v48

def fn_part1 {F : FTy → Type} [FloatOps F] (main_arg5 : FVec F S1536 .f32) (main_arg6 : FVec F S1536 .f32) (main_arg7 : FVec F S1536x512 .f32) (main_arg8 : FVec F S1536x512 .f32) (main_arg9 : FVec F S1536 .f32) (main_arg10 : FVec F S1536 .f32) (main_v13 : IVec S_ 1) (main_v16 : IVec S1536x512 1) : IVec S_ 1 :=
  let main_c_5 : IVec S_ 1 := constantI S_ 1 1#1
  let main_v17 : IVec S_ 1 := (fun x v => Host.reduce IntOp.andi x v reducesTo_S1536x512_S_d0_1 h_S_) main_v16 main_c_5
  let main_v18 : IVec S_ 1 := andi main_v13 main_v17
  let main_v19 : FVec F S1536 .f32 := Host.absf main_arg5
  let main_cst_6 : FVec F S_ .f32 := constant S_ .f32 0x7F800000#32
  let main_v20 : FVec F S1536 .f32 := broadcastInDim S1536 ![] bcast_S_S1536 main_cst_6
  let main_v21 : IVec S1536 1 := cmpf .olt main_v19 main_v20
  let main_c_7 : IVec S_ 1 := constantI S_ 1 1#1
  let main_v22 : IVec S_ 1 := (fun x v => Host.reduce IntOp.andi x v reducesTo_S1536_S_d0 h_S_) main_v21 main_c_7
  let main_v23 : IVec S_ 1 := andi main_v18 main_v22
  let main_v24 : FVec F S1536 .f32 := Host.absf main_arg6
  let main_cst_8 : FVec F S_ .f32 := constant S_ .f32 0x7F800000#32
  let main_v25 : FVec F S1536 .f32 := broadcastInDim S1536 ![] bcast_S_S1536 main_cst_8
  let main_v26 : IVec S1536 1 := cmpf .olt main_v24 main_v25
  let main_c_9 : IVec S_ 1 := constantI S_ 1 1#1
  let main_v27 : IVec S_ 1 := (fun x v => Host.reduce IntOp.andi x v reducesTo_S1536_S_d0 h_S_) main_v26 main_c_9
  let main_v28 : IVec S_ 1 := andi main_v23 main_v27
  let main_v29 : FVec F S1536x512 .f32 := Host.absf main_arg7
  let main_cst_10 : FVec F S_ .f32 := constant S_ .f32 0x7F800000#32
  let main_v30 : FVec F S1536x512 .f32 := broadcastInDim S1536x512 ![] bcast_S_S1536x512 main_cst_10
  let main_v31 : IVec S1536x512 1 := cmpf .olt main_v29 main_v30
  let main_c_11 : IVec S_ 1 := constantI S_ 1 1#1
  let main_v32 : IVec S_ 1 := (fun x v => Host.reduce IntOp.andi x v reducesTo_S1536x512_S_d0_1 h_S_) main_v31 main_c_11
  let main_v33 : IVec S_ 1 := andi main_v28 main_v32
  fn_part2 (F := F) main_arg8 main_arg9 main_arg10 main_v33

def fn {F : FTy → Type} [FloatOps F] (main_arg0 : FVec F S256x512 .f32) (main_arg1 : FVec F S256x2x512 .f32) (main_arg2 : IVec S256x1 1) (main_arg3 : FVec F S1536x512 .f32) (main_arg4 : FVec F S1536x512 .f32) (main_arg5 : FVec F S1536 .f32) (main_arg6 : FVec F S1536 .f32) (main_arg7 : FVec F S1536x512 .f32) (main_arg8 : FVec F S1536x512 .f32) (main_arg9 : FVec F S1536 .f32) (main_arg10 : FVec F S1536 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S256x2x512 .f32 := Host.absf main_arg1
  let main_cst_0 : FVec F S_ .f32 := constant S_ .f32 0x7F800000#32
  let main_v5 : FVec F S256x2x512 .f32 := broadcastInDim S256x2x512 ![] bcast_S_S256x2x512 main_cst_0
  let main_v6 : IVec S256x2x512 1 := cmpf .olt main_v4 main_v5
  let main_c_1 : IVec S_ 1 := constantI S_ 1 1#1
  let main_v7 : IVec S_ 1 := (fun x v => Host.reduce IntOp.andi x v reducesTo_S256x2x512_S_d0_1_2 h_S_) main_v6 main_c_1
  let main_v8 : IVec S_ 1 := andi main_v3 main_v7
  let main_v9 : FVec F S1536x512 .f32 := Host.absf main_arg3
  let main_cst_2 : FVec F S_ .f32 := constant S_ .f32 0x7F800000#32
  let main_v10 : FVec F S1536x512 .f32 := broadcastInDim S1536x512 ![] bcast_S_S1536x512 main_cst_2
  let main_v11 : IVec S1536x512 1 := cmpf .olt main_v9 main_v10
  let main_c_3 : IVec S_ 1 := constantI S_ 1 1#1
  let main_v12 : IVec S_ 1 := (fun x v => Host.reduce IntOp.andi x v reducesTo_S1536x512_S_d0_1 h_S_) main_v11 main_c_3
  let main_v13 : IVec S_ 1 := andi main_v8 main_v12
  let main_v14 : FVec F S1536x512 .f32 := Host.absf main_arg4
  let main_cst_4 : FVec F S_ .f32 := constant S_ .f32 0x7F800000#32
  let main_v15 : FVec F S1536x512 .f32 := broadcastInDim S1536x512 ![] bcast_S_S1536x512 main_cst_4
  let main_v16 : IVec S1536x512 1 := cmpf .olt main_v14 main_v15
  fn_part1 (F := F) main_arg5 main_arg6 main_arg7 main_arg8 main_arg9 main_arg10 main_v13 main_v16
-- ==== Kernel.lean ====
abbrev S256x512 : Shape := ⟨2, ![256, 512]⟩
abbrev S256x2x512 : Shape := ⟨3, ![256, 2, 512]⟩
abbrev S256x1 : Shape := ⟨2, ![256, 1]⟩
abbrev S1536x512 : Shape := ⟨2, ![1536, 512]⟩
abbrev S1536 : Shape := ⟨1, ![1536]⟩
abbrev S1x1536 : Shape := ⟨2, ![1, 1536]⟩
abbrev S2x1536 : Shape := ⟨2, ![2, 1536]⟩
abbrev S2x3x1x512 : Shape := ⟨4, ![2, 3, 1, 512]⟩
abbrev S2x2x1x512 : Shape := ⟨4, ![2, 2, 1, 512]⟩
abbrev S2x2x8x512 : Shape := ⟨4, ![2, 2, 8, 512]⟩
abbrev S2x1x1x512 : Shape := ⟨4, ![2, 1, 1, 512]⟩
abbrev S2x1x512 : Shape := ⟨3, ![2, 1, 512]⟩
abbrev S2x8x512 : Shape := ⟨3, ![2, 8, 512]⟩
abbrev S256x1x512 : Shape := ⟨3, ![256, 1, 512]⟩
abbrev S256x1536 : Shape := ⟨2, ![256, 1536]⟩
abbrev S1x1x8x512 : Shape := ⟨4, ![1, 1, 8, 512]⟩
abbrev S8x512 : Shape := ⟨2, ![8, 512]⟩
abbrev S1x8x512 : Shape := ⟨3, ![1, 8, 512]⟩

abbrev nBuf : Space → Nat
  | .hbm => 36
  | .vmem => 12
  | .smem => 0
  | _ => 0

abbrev bufTy : (tb : Table) → Fin (tcTables nBuf tb) → BufTy
  | .hbm, ⟨0, _⟩ => ⟨S256x512, .f32⟩
  | .hbm, ⟨1, _⟩ => ⟨S256x2x512, .f32⟩
  | .hbm, ⟨2, _⟩ => ⟨S256x1, .i1⟩
  | .hbm, ⟨3, _⟩ => ⟨S1536x512, .f32⟩
  | .hbm, ⟨4, _⟩ => ⟨S1536x512, .f32⟩
  | .hbm, ⟨5, _⟩ => ⟨S1536, .f32⟩
  | .hbm, ⟨6, _⟩ => ⟨S1536, .f32⟩
  | .hbm, ⟨7, _⟩ => ⟨S1536x512, .f32⟩
  | .hbm, ⟨8, _⟩ => ⟨S1536x512, .f32⟩
  | .hbm, ⟨9, _⟩ => ⟨S1536, .f32⟩
  | .hbm, ⟨10, _⟩ => ⟨S1536, .f32⟩
  | .hbm, ⟨11, _⟩ => ⟨S256x1, .f32⟩
  | .hbm, ⟨12, _⟩ => ⟨S1536, .f32⟩
  | .hbm, ⟨13, _⟩ => ⟨S1536, .f32⟩
  | .hbm, ⟨14, _⟩ => ⟨S1x1536, .f32⟩
  | .hbm, ⟨15, _⟩ => ⟨S1x1536, .f32⟩
  | .hbm, ⟨16, _⟩ => ⟨S2x1536, .f32⟩
  | .hbm, ⟨17, _⟩ => ⟨S2x3x1x512, .f32⟩
  | .hbm, ⟨18, _⟩ => ⟨S2x2x1x512, .f32⟩
  | .hbm, ⟨19, _⟩ => ⟨S2x2x8x512, .f32⟩
  | .hbm, ⟨20, _⟩ => ⟨S1x1536, .f32⟩
  | .hbm, ⟨21, _⟩ => ⟨S1x1536, .f32⟩
  | .hbm, ⟨22, _⟩ => ⟨S2x1536, .f32⟩
  | .hbm, ⟨23, _⟩ => ⟨S2x3x1x512, .f32⟩
  | .hbm, ⟨24, _⟩ => ⟨S2x1x1x512, .f32⟩
  | .hbm, ⟨25, _⟩ => ⟨S2x1x512, .f32⟩
  | .hbm, ⟨26, _⟩ => ⟨S2x8x512, .f32⟩
  | .hbm, ⟨27, _⟩ => ⟨S1x1536, .f32⟩
  | .hbm, ⟨28, _⟩ => ⟨S1x1536, .f32⟩
  | .hbm, ⟨29, _⟩ => ⟨S2x1536, .f32⟩
  | .hbm, ⟨30, _⟩ => ⟨S2x3x1x512, .f32⟩
  | .hbm, ⟨31, _⟩ => ⟨S2x1x1x512, .f32⟩
  | .hbm, ⟨32, _⟩ => ⟨S2x1x512, .f32⟩
  | .hbm, ⟨33, _⟩ => ⟨S2x8x512, .f32⟩
  | .hbm, ⟨34, _⟩ => ⟨S256x512, .f32⟩
  | .hbm, ⟨35, _⟩ => ⟨S256x2x512, .f32⟩
  | .local _ .vmem, ⟨0, _⟩ => ⟨S256x512, .f32⟩
  | .local _ .vmem, ⟨1, _⟩ => ⟨S256x2x512, .f32⟩
  | .local _ .vmem, ⟨2, _⟩ => ⟨S256x1, .f32⟩
  | .local _ .vmem, ⟨3, _⟩ => ⟨S2x2x8x512, .f32⟩
  | .local _ .vmem, ⟨4, _⟩ => ⟨S2x8x512, .f32⟩
  | .local _ .vmem, ⟨5, _⟩ => ⟨S2x8x512, .f32⟩
  | .local _ .vmem, ⟨6, _⟩ => ⟨S1536x512, .f32⟩
  | .local _ .vmem, ⟨7, _⟩ => ⟨S1536x512, .f32⟩
  | .local _ .vmem, ⟨8, _⟩ => ⟨S1536x512, .f32⟩
  | .local _ .vmem, ⟨9, _⟩ => ⟨S1536x512, .f32⟩
  | .local _ .vmem, ⟨10, _⟩ => ⟨S256x512, .f32⟩
  | .local _ .vmem, ⟨11, _⟩ => ⟨S256x2x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2x8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x2x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

class Facts₀ : Prop where
  bcast_S1536_S1x1536_1 : S1536.BroadcastsInDim S1x1536 (![1] : Fin 1 → Fin S1x1536.rank)
  concatenates_S1x1536_S1x1536_S2x1536_d0 : Shape.Concatenates [S1x1536, S1x1536] S2x1536 0
  shapeCasts_S2x1536_S2x3x1x512 : S2x1536.ShapeCasts S2x3x1x512
  slices_S2x3x1x512_S2x2x1x512_0_0_0_0 : S2x3x1x512.Slices ![0, 0, 0, 0] S2x2x1x512
  bcast_S2x2x1x512_S2x2x8x512_0_1_2_3 : S2x2x1x512.BroadcastsInDim S2x2x8x512 (![0, 1, 2, 3] : Fin 4 → Fin S2x2x8x512.rank)
  slices_S2x3x1x512_S2x1x1x512_0_2_0_0 : S2x3x1x512.Slices ![0, 2, 0, 0] S2x1x1x512
  shapeCasts_S2x1x1x512_S2x1x512 : S2x1x1x512.ShapeCasts S2x1x512
  bcast_S2x1x512_S2x8x512_0_1_2 : S2x1x512.BroadcastsInDim S2x8x512 (![0, 1, 2] : Fin 3 → Fin S2x8x512.rank)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x512 : S256x1.Broadcasts S256x512
  inb_S256x2x512_S256x1x512_0_0_0 : ∀ a, (![0, 0, 0] : Fin 3 → Nat) a + S256x1x512.size a ≤ S256x2x512.size a
  h_S256x1x512 : 0 < S256x1x512.numel
  shapeCasts_S256x1x512_S256x512 : S256x1x512.ShapeCasts S256x512
  inb_S256x2x512_S256x1x512_0_1_0 : ∀ a, (![0, 1, 0] : Fin 3 → Nat) a + S256x1x512.size a ≤ S256x2x512.size a
  inb_S256x512_S256x512_0_0 : ∀ a, (![0, 0] : Fin 2 → Nat) a + S256x512.size a ≤ S256x512.size a
  h_S256x512 : 0 < S256x512.numel
  inb_S1536x512_S1536x512_0_0 : ∀ a, (![0, 0] : Fin 2 → Nat) a + S1536x512.size a ≤ S1536x512.size a
  h_S1536x512 : 0 < S1536x512.numel
  slices_S256x1536_o0_0_S256x512 : S256x1536.Slices ![0, 0] S256x512
  inb_S2x2x8x512_S1x1x8x512_0_0_0_0 : ∀ a, (![0, 0, 0, 0] : Fin 4 → Nat) a + S1x1x8x512.size a ≤ S2x2x8x512.size a
  h_S1x1x8x512 : 0 < S1x1x8x512.numel
  shapeCasts_S1x1x8x512_S8x512 : S1x1x8x512.ShapeCasts S8x512
  concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S256x512_d0 : Shape.Concatenates [S8x512, S8x512, S8x512, S8x512, S8x512, S8x512, S8x512, S8x512, S8x512, S8x512, S8x512, S8x512, S8x512, S8x512, S8x512, S8x512, S8x512, S8x512, S8x512, S8x512, S8x512, S8x512, S8x512, S8x512, S8x512, S8x512, S8x512, S8x512, S8x512, S8x512, S8x512, S8x512] S256x512 0
  slices_S256x1536_o0_512_S256x512 : S256x1536.Slices ![0, 512] S256x512
  inb_S2x2x8x512_S1x1x8x512_0_1_0_0 : ∀ a, (![0, 1, 0, 0] : Fin 4 → Nat) a + S1x1x8x512.size a ≤ S2x2x8x512.size a
  slices_S256x1536_o0_1024_S256x512 : S256x1536.Slices ![0, 1024] S256x512
  inb_S2x8x512_S1x8x512_0_0_0 : ∀ a, (![0, 0, 0] : Fin 3 → Nat) a + S1x8x512.size a ≤ S2x8x512.size a
  h_S1x8x512 : 0 < S1x8x512.numel
  shapeCasts_S1x8x512_S8x512 : S1x8x512.ShapeCasts S8x512
  shapeCasts_S256x512_S256x1x512 : S256x512.ShapeCasts S256x1x512
  inb_S2x2x8x512_S1x1x8x512_1_0_0_0 : ∀ a, (![1, 0, 0, 0] : Fin 4 → Nat) a + S1x1x8x512.size a ≤ S2x2x8x512.size a
  inb_S2x2x8x512_S1x1x8x512_1_1_0_0 : ∀ a, (![1, 1, 0, 0] : Fin 4 → Nat) a + S1x1x8x512.size a ≤ S2x2x8x512.size a
  inb_S2x8x512_S1x8x512_1_0_0 : ∀ a, (![1, 0, 0] : Fin 3 → Nat) a + S1x8x512.size a ≤ S2x8x512.size a
  dot_S256x512_S1536x512_S256x1536_1_1_0_0_n_n_wf : DotDims.WF S256x512 S1536x512 S256x1536 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole

variable [Facts₀]

def dot_S256x512_S1536x512_S256x1536_1_1_0_0_n_n : DotDims S256x512 S1536x512 S256x1536 where
  lhsContracting := [1]
  rhsContracting := [1]
  lhsNonContracting := [0]
  rhsNonContracting := [0]
  lhsBatch := []
  rhsBatch := []
  wf := dot_S256x512_S1536x512_S256x1536_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_v8) false false (stage0_3 0) (sem0_3 0) (Memref.isWhole_whole _) (hstage0_3 0)

abbrev win0_4 : Pipeline.Window sig grid0 :=
  Pipeline.Window.whole (Memref.whole main_v15) false false (stage0_4 0) (sem0_4 0) (Memref.isWhole_whole _) (hstage0_4 0)

abbrev win0_5 : Pipeline.Window sig grid0 :=
  Pipeline.Window.whole (Memref.whole main_v22) false false (stage0_5 0) (sem0_5 0) (Memref.isWhole_whole _) (hstage0_5 0)

abbrev win0_6 : Pipeline.Window sig grid0 :=
  Pipeline.Window.whole (Memref.whole main_arg3) false false (stage0_6 0) (sem0_6 0) (Memref.isWhole_whole _) (hstage0_6 0)

abbrev win0_7 : Pipeline.Window sig grid0 :=
  Pipeline.Window.whole (Memref.whole main_arg4) false false (stage0_7 0) (sem0_7 0) (Memref.isWhole_whole _) (hstage0_7 0)

abbrev win0_8 : Pipeline.Window sig grid0 :=
  Pipeline.Window.whole (Memref.whole main_arg7) false false (stage0_8 0) (sem0_8 0) (Memref.isWhole_whole _) (hstage0_8 0)

abbrev win0_9 : Pipeline.Window sig grid0 :=
  Pipeline.Window.whole (Memref.whole main_arg8) false false (stage0_9 0) (sem0_9 0) (Memref.isWhole_whole _) (hstage0_9 0)

abbrev win0_10 : Pipeline.Window sig grid0 :=
  Pipeline.Window.whole (Memref.whole main_v23_0) true false (stage0_10 0) (sem0_10 0) (Memref.isWhole_whole _) (hstage0_10 0)

abbrev win0_11 : Pipeline.Window sig grid0 :=
  Pipeline.Window.whole (Memref.whole main_v23_1) true false (stage0_11 0) (sem0_11 0) (Memref.isWhole_whole _) (hstage0_11 0)

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S256x512 : Shape := ⟨2, ![256, 512]⟩
abbrev S256x2x512 : Shape := ⟨3, ![256, 2, 512]⟩
abbrev S256x1 : Shape := ⟨2, ![256, 1]⟩
abbrev S1536x512 : Shape := ⟨2, ![1536, 512]⟩
abbrev S1536 : Shape := ⟨1, ![1536]⟩
abbrev S2x256x512 : Shape := ⟨3, ![2, 256, 512]⟩
abbrev S1x256x1 : Shape := ⟨3, ![1, 256, 1]⟩
abbrev S_ : Shape := ⟨0, ![]⟩
abbrev S1x256x512 : Shape := ⟨3, ![1, 256, 512]⟩
abbrev S512x1536 : Shape := ⟨2, ![512, 1536]⟩
abbrev S256x1536 : Shape := ⟨2, ![256, 1536]⟩
abbrev S1x1536 : Shape := ⟨2, ![1, 1536]⟩

abbrev nBuf : Space → Nat
  | .hbm => 111
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x2x512, .f32⟩
  | .hbm, ⟨2, _⟩ => ⟨S256x1, .i1⟩
  | .hbm, ⟨3, _⟩ => ⟨S1536x512, .f32⟩
  | .hbm, ⟨4, _⟩ => ⟨S1536x512, .f32⟩
  | .hbm, ⟨5, _⟩ => ⟨S1536, .f32⟩
  | .hbm, ⟨6, _⟩ => ⟨S1536, .f32⟩
  | .hbm, ⟨7, _⟩ => ⟨S1536x512, .f32⟩
  | .hbm, ⟨8, _⟩ => ⟨S1536x512, .f32⟩
  | .hbm, ⟨9, _⟩ => ⟨S1536, .f32⟩
  | .hbm, ⟨10, _⟩ => ⟨S1536, .f32⟩
  | .hbm, ⟨11, _⟩ => ⟨S2x256x512, .f32⟩
  | .hbm, ⟨12, _⟩ => ⟨S1x256x1, .i1⟩
  | .hbm, ⟨13, _⟩ => ⟨S_, .f32⟩
  | .hbm, ⟨14, _⟩ => ⟨S2x256x512, .i1⟩
  | .hbm, ⟨15, _⟩ => ⟨S2x256x512, .f32⟩
  | .hbm, ⟨16, _⟩ => ⟨S2x256x512, .f32⟩
  | .hbm, ⟨17, _⟩ => ⟨S1x256x512, .f32⟩
  | .hbm, ⟨18, _⟩ => ⟨S256x512, .f32⟩
  | .hbm, ⟨19, _⟩ => ⟨S512x1536, .f32⟩
  | .hbm, ⟨20, _⟩ => ⟨S256x1536, .f32⟩
  | .hbm, ⟨21, _⟩ => ⟨S1x1536, .f32⟩
  | .hbm, ⟨22, _⟩ => ⟨S256x1536, .f32⟩
  | .hbm, ⟨23, _⟩ => ⟨S256x1536, .f32⟩
  | .hbm, ⟨24, _⟩ => ⟨S512x1536, .f32⟩
  | .hbm, ⟨25, _⟩ => ⟨S256x1536, .f32⟩
  | .hbm, ⟨26, _⟩ => ⟨S1x1536, .f32⟩
  | .hbm, ⟨27, _⟩ => ⟨S256x1536, .f32⟩
  | .hbm, ⟨28, _⟩ => ⟨S256x1536, .f32⟩
  | .hbm, ⟨29, _⟩ => ⟨S256x512, .f32⟩
  | .hbm, ⟨30, _⟩ => ⟨S256x512, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S256x512, .f32⟩
  | .hbm, ⟨35, _⟩ => ⟨S256x512, .f32⟩
  | .hbm, ⟨36, _⟩ => ⟨S256x512, .f32⟩
  | .hbm, ⟨37, _⟩ => ⟨S256x512, .f32⟩
  | .hbm, ⟨38, _⟩ => ⟨S_, .f32⟩
  | .hbm, ⟨39, _⟩ => ⟨S256x512, .f32⟩
  | .hbm, ⟨40, _⟩ => ⟨S256x512, .f32⟩
  | .hbm, ⟨41, _⟩ => ⟨S_, .f32⟩
  | .hbm, ⟨42, _⟩ => ⟨S256x512, .f32⟩
  | .hbm, ⟨43, _⟩ => ⟨S256x512, .f32⟩
  | .hbm, ⟨44, _⟩ => ⟨S256x512, .f32⟩
  | .hbm, ⟨45, _⟩ => ⟨S256x512, .f32⟩
  | .hbm, ⟨46, _⟩ => ⟨S256x512, .f32⟩
  | .hbm, ⟨47, _⟩ => ⟨S_, .f32⟩
  | .hbm, ⟨48, _⟩ => ⟨S256x512, .f32⟩
  | .hbm, ⟨49, _⟩ => ⟨S256x512, .f32⟩
  | .hbm, ⟨50, _⟩ => ⟨S_, .f32⟩
  | .hbm, ⟨51, _⟩ => ⟨S256x512, .f32⟩
  | .hbm, ⟨52, _⟩ => ⟨S256x512, .f32⟩
  | .hbm, ⟨53, _⟩ => ⟨S256x512, .f32⟩
  | .hbm, ⟨54, _⟩ => ⟨S256x512, .f32⟩
  | .hbm, ⟨55, _⟩ => ⟨S256x512, .f32⟩
  | .hbm, ⟨56, _⟩ => ⟨S_, .f32⟩
  | .hbm, ⟨57, _⟩ => ⟨S256x512, .f32⟩
  | .hbm, ⟨58, _⟩ => ⟨S256x512, .f32⟩
  | .hbm, ⟨59, _⟩ => ⟨S256x512, .f32⟩
  | .hbm, ⟨60, _⟩ => ⟨S256x512, .f32⟩
  | .hbm, ⟨61, _⟩ => ⟨S256x512, .f32⟩
  | .hbm, ⟨62, _⟩ => ⟨S1x256x512, .f32⟩
  | .hbm, ⟨63, _⟩ => ⟨S256x512, .f32⟩
  | .hbm, ⟨64, _⟩ => ⟨S512x1536, .f32⟩
  | .hbm, ⟨65, _⟩ => ⟨S256x1536, .f32⟩
  | .hbm, ⟨66, _⟩ => ⟨S1x1536, .f32⟩
  | .hbm, ⟨67, _⟩ => ⟨S256x1536, .f32⟩
  | .hbm, ⟨68, _⟩ => ⟨S256x1536, .f32⟩
  | .hbm, ⟨69, _⟩ => ⟨S512x1536, .f32⟩
  | .hbm, ⟨70, _⟩ => ⟨S256x1536, .f32⟩
  | .hbm, ⟨71, _⟩ => ⟨S1x1536, .f32⟩
  | .hbm, ⟨72, _⟩ => ⟨S256x1536, .f32⟩
  | .hbm, ⟨73, _⟩ => ⟨S256x1536, .f32⟩
  | .hbm, ⟨74, _⟩ => ⟨S256x512, .f32⟩
  | .hbm, ⟨75, _⟩ => ⟨S256x512, .f32⟩
  | .hbm, ⟨76, _⟩ => ⟨S256x512, .f32⟩
  | .hbm, ⟨77, _⟩ => ⟨S256x512, .f32⟩
  | .hbm, ⟨78, _⟩ => ⟨S256x512, .f32⟩
  | .hbm, ⟨79, _⟩ => ⟨S256x512, .f32⟩
  | .hbm, ⟨80, _⟩ => ⟨S256x512, .f32⟩
  | .hbm, ⟨81, _⟩ => ⟨S256x512, .f32⟩
  | .hbm, ⟨82, _⟩ => ⟨S256x512, .f32⟩
  | .hbm, ⟨83, _⟩ => ⟨S_, .f32⟩
  | .hbm, ⟨84, _⟩ => ⟨S256x512, .f32⟩
  | .hbm, ⟨85, _⟩ => ⟨S256x512, .f32⟩
  | .hbm, ⟨86, _⟩ => ⟨S_, .f32⟩
  | .hbm, ⟨87, _⟩ => ⟨S256x512, .f32⟩
  | .hbm, ⟨88, _⟩ => ⟨S256x512, .f32⟩
  | .hbm, ⟨89, _⟩ => ⟨S256x512, .f32⟩
  | .hbm, ⟨90, _⟩ => ⟨S256x512, .f32⟩
  | .hbm, ⟨91, _⟩ => ⟨S256x512, .f32⟩
  | .hbm, ⟨92, _⟩ => ⟨S_, .f32⟩
  | .hbm, ⟨93, _⟩ => ⟨S256x512, .f32⟩
  | .hbm, ⟨94, _⟩ => ⟨S256x512, .f32⟩
  | .hbm, ⟨95, _⟩ => ⟨S_, .f32⟩
  | .hbm, ⟨96, _⟩ => ⟨S256x512, .f32⟩
  | .hbm, ⟨97, _⟩ => ⟨S256x512, .f32⟩
  | .hbm, ⟨98, _⟩ => ⟨S256x512, .f32⟩
  | .hbm, ⟨99, _⟩ => ⟨S256x512, .f32⟩
  | .hbm, ⟨100, _⟩ => ⟨S256x512, .f32⟩
  | .hbm, ⟨101, _⟩ => ⟨S_, .f32⟩
  | .hbm, ⟨102, _⟩ => ⟨S256x512, .f32⟩
  | .hbm, ⟨103, _⟩ => ⟨S256x512, .f32⟩
  | .hbm, ⟨104, _⟩ => ⟨S256x512, .f32⟩
  | .hbm, ⟨105, _⟩ => ⟨S256x512, .f32⟩
  | .hbm, ⟨106, _⟩ => ⟨S256x512, .f32⟩
  | .hbm, ⟨107, _⟩ => ⟨S1x256x512, .f32⟩
  | .hbm, ⟨108, _⟩ => ⟨S1x256x512, .f32⟩
  | .hbm, ⟨109, _⟩ => ⟨S2x256x512, .f32⟩
  | .hbm, ⟨110, _⟩ => ⟨S256x2x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_5 : Ref sig .tc := ⟨.hbm, 83, rfl⟩
abbrev main_v64 : Ref sig .tc := ⟨.hbm, 84, rfl⟩
abbrev main_v65 : Ref sig .tc := ⟨.hbm, 85, rfl⟩
abbrev main_cst_6 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_7 : Ref sig .tc := ⟨.hbm, 92, rfl⟩
abbrev main_v71 : Ref sig .tc := ⟨.hbm, 93, rfl⟩
abbrev main_v72 : Ref sig .tc := ⟨.hbm, 94, rfl⟩
abbrev main_cst_8 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_9 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩

abbrev nD : Nat := 1
abbrev τ : Topo := Topo.v7x

variable {F : FTy → Type} [FloatOps F]

class Facts₀ : Prop where
  transposes_S256x2x512_S2x256x512_1_0_2 : S256x2x512.Transposes [1, 0, 2] S2x256x512
  shapeCasts_S256x1_S1x256x1 : S256x1.ShapeCasts S1x256x1
  bcast_S1x256x1_S2x256x512_0_1_2 : S1x256x1.BroadcastsInDim S2x256x512 (![0, 1, 2] : Fin 3 → Fin S2x256x512.rank)
  bcast_S_S2x256x512 : S_.BroadcastsInDim S2x256x512 (![] : Fin 0 → Fin S2x256x512.rank)
  slices_S2x256x512_S1x256x512_0_0_0 : S2x256x512.Slices ![0, 0, 0] S1x256x512
  shapeCasts_S1x256x512_S256x512 : S1x256x512.ShapeCasts S256x512
  transposes_S1536x512_S512x1536_1_0 : S1536x512.Transposes [1, 0] S512x1536
  bcast_S1536_S1x1536_1 : S1536.BroadcastsInDim S1x1536 (![1] : Fin 1 → Fin S1x1536.rank)
  bcast_S1x1536_S256x1536_0_1 : S1x1536.BroadcastsInDim S256x1536 (![0, 1] : Fin 2 → Fin S256x1536.rank)
  slices_S256x1536_S256x512_0_0 : S256x1536.Slices ![0, 0] S256x512
  slices_S256x1536_S256x512_0_512 : S256x1536.Slices ![0, 512] S256x512
  slices_S256x1536_S256x512_0_1024 : S256x1536.Slices ![0, 1024] S256x512
  bcast_S_S256x512 : S_.BroadcastsInDim S256x512 (![] : Fin 0 → Fin S256x512.rank)
  slices_S2x256x512_S1x256x512_1_0_0 : S2x256x512.Slices ![1, 0, 0] S1x256x512
  bcast_S256x512_S1x256x512_1_2 : S256x512.BroadcastsInDim S1x256x512 (![1, 2] : Fin 2 → Fin S1x256x512.rank)
  concatenates_S1x256x512_S1x256x512_S2x256x512_d0 : Shape.Concatenates [S1x256x512, S1x256x512] S2x256x512 0
  transposes_S2x256x512_S256x2x512_1_0_2 : S2x256x512.Transposes [1, 0, 2] S256x2x512
  dot_S256x512_S512x1536_S256x1536_1_0_0_1_n_n_wf : DotDims.WF S256x512 S512x1536 S256x1536 [1] [0] [0] [1] [] []

variable [Facts₀]

def dot_S256x512_S512x1536_S256x1536_1_0_0_1_n_n : DotDims S256x512 S512x1536 S256x1536 where
  lhsContracting := [1]
  rhsContracting := [0]
  lhsNonContracting := [0]
  rhsNonContracting := [1]
  lhsBatch := []
  rhsBatch := []
  wf := dot_S256x512_S512x1536_S256x1536_1_0_0_1_n_n_wf

class Facts : Prop extends Facts₀ where

variable [Facts]
-- ==== Proof.GruSpec.lean ====
/-
  The mathematics of one step of a two-layer gated recurrent unit, stated once over plain coordinates, for both
  programs to be read against.

  Rows are the 256 batch entries, columns the 512 hidden units. A layer takes an input activation `a`, a
  previous hidden state `b`, two weight matrices of 1536 = 3 · 512 rows (the reset, update and candidate gates'
  rows, in that order) and two bias vectors of 1536 entries, and returns

    r = σ((a·Wiᵀ + bi) + (b·Whᵀ + bh))         on the reset rows
    z = σ((a·Wiᵀ + bi) + (b·Whᵀ + bh))         on the update rows
    n = tanh((a·Wiᵀ + bi) + r · (b·Whᵀ + bh))  on the candidate rows
    h' = (1 − z) · n + z · b

  on the extended reals. The previous hidden state of layer `l` is row `l` of the stored state, replaced by zero
  where the episode mask is not set. The second layer's input is the first layer's result.
-/
import Idealize.ShloMosaic.PureOps.Ideal
import Idealize.ShloMosaic.Lib.ValueIdx

noncomputable section

open scoped BigOperators

namespace Cert.GruSpec

open Idealize.ShloMosaic Idealize.ShloMosaic.ValueIdx

/-- An activation: one extended real per batch entry and hidden unit. -/
abbrev Act := Fin 256 → Fin 512 → EReal
/-- A gate weight matrix: one row per gate unit, one column per input unit. -/
abbrev Wt := Fin 1536 → Fin 512 → EReal
/-- A gate bias. -/
abbrev Bias := Fin 1536 → EReal

/-- The number one, as both programs spell it: the binary32 word of 1.0 read at the ideal instance. -/
def one : EReal := Ideal.ofBits .f32 0x3F800000#32

/-- The reset gate's row for hidden unit `q`. -/
def colR (q : Fin 512) : Fin 1536 := ⟨q.val, by have := q.isLt; omega⟩
/-- The update gate's row for hidden unit `q`. -/
def colZ (q : Fin 512) : Fin 1536 := ⟨q.val + 512, by have := q.isLt; omega⟩
/-- The candidate's row for hidden unit `q`. -/
def colN (q : Fin 512) : Fin 1536 := ⟨q.val + 1024, by have := q.isLt; omega⟩

/-- Entry `(p, j)` of `a · Wᵀ`. -/
def proj (a : Act) (W : Wt) (p : Fin 256) (j : Fin 1536) : EReal := ∑ k : Fin 512, a p k * W j k

/-- One layer. -/
def cell (a b : Act) (Wi Wh : Wt) (bi bh : Bias) : Act := fun p q =>
  (one - Ideal.logistic ((proj a Wi p (colZ q) + bi (colZ q)) + (proj b Wh p (colZ q) + bh (colZ q))))
      * Ideal.tanh ((proj a Wi p (colN q) + bi (colN q))
          + Ideal.logistic ((proj a Wi p (colR q) + bi (colR q)) + (proj b Wh p (colR q) + bh (colR q)))
            * (proj b Wh p (colN q) + bh (colN q)))
    + Ideal.logistic ((proj a Wi p (colZ q) + bi (colZ q)) + (proj b Wh p (colZ q) + bh (colZ q))) * b p q

/-- The same layer with the two programs' other grouping of the reset and update pre-activations: the two
    projections added first, then the two biases' sum. Addition on the extended reals is commutative and
    associative, so nothing else is needed. -/
theorem cell_grouped (a b : Act) (Wi Wh : Wt) (bi bh : Bias) (p : Fin 256) (q : Fin 512) :
    (one - Ideal.logistic ((proj a Wi p (colZ q) + proj b Wh p (colZ q)) + (bi (colZ q) + bh (colZ q))))
      * Ideal.tanh ((proj a Wi p (colN q) + bi (colN q))
          + Ideal.logistic ((proj a Wi p (colR q) + proj b Wh p (colR q)) + (bi (colR q) + bh (colR q)))
            * (proj b Wh p (colN q) + bh (colN q)))
    + Ideal.logistic ((proj a Wi p (colZ q) + proj b Wh p (colZ q)) + (bi (colZ q) + bh (colZ q))) * b p q
    = cell a b Wi Wh bi bh p q := by
  unfold cell
  rw [add_add_add_comm (proj a Wi p (colZ q)), add_add_add_comm (proj a Wi p (colR q))]

/-- An argument array of activations by coordinates. -/
def actOf (x : (⟨2, ![256, 512]⟩ : Shape).Idx → EReal) : Act := fun p k => x (ix2 p k)
/-- An argument weight matrix by coordinates. -/
def wtOf (W : (⟨2, ![1536, 512]⟩ : Shape).Idx → EReal) : Wt := fun j k => W (ix2 j k)
/-- An argument bias by its coordinate. -/
def biasOf (b : (⟨1, ![1536]⟩ : Shape).Idx → EReal) : Bias := fun j => b (ix1 j)

/-- Layer `l`'s previous hidden state: the stored state's row `l`, zero where the mask bit is not set. -/
def hidden (h : (⟨3, ![256, 2, 512]⟩ : Shape).Idx → EReal) (mk : (⟨2, ![256, 1]⟩ : Shape).Idx → BitVec 1) (l : Fin 2) : Act :=
  fun p k => if mk (ix2 p 0) = 1#1 then h (ix3 p l k) else 0

section
variable (x : (⟨2, ![256, 512]⟩ : Shape).Idx → EReal) (h : (⟨3, ![256, 2, 512]⟩ : Shape).Idx → EReal)
  (mk : (⟨2, ![256, 1]⟩ : Shape).Idx → BitVec 1)
  (Wih0 Whh0 : (⟨2, ![1536, 512]⟩ : Shape).Idx → EReal) (bih0 bhh0 : (⟨1, ![1536]⟩ : Shape).Idx → EReal)
  (Wih1 Whh1 : (⟨2, ![1536, 512]⟩ : Shape).Idx → EReal) (bih1 bhh1 : (⟨1, ![1536]⟩ : Shape).Idx → EReal)

/-- The first layer's new hidden state. -/
def layer0 : Act := cell (actOf x) (hidden h mk 0) (wtOf Wih0) (wtOf Whh0) (biasOf bih0) (biasOf bhh0)

/-- The second layer's new hidden state: its input is the first layer's. -/
def layer1 : Act :=
  cell (layer0 x h mk Wih0 Whh0 bih0 bhh0) (hidden h mk 1) (wtOf Wih1) (wtOf Whh1) (biasOf bih1) (biasOf bhh1)

/-- The first result: the top layer's new hidden state, as a 256 × 512 array. -/
def out : (⟨2, ![256, 512]⟩ : Shape).Idx → EReal :=
  fun i => layer1 x h mk Wih0 Whh0 bih0 bhh0 Wih1 Whh1 bih1 bhh1 (i 0) (i 1)

/-- The second result: both layers' new hidden states, layer on the middle axis, as a 256 × 2 × 512 array. -/
def newHidden : (⟨3, ![256, 2, 512]⟩ : Shape).Idx → EReal :=
  fun i => if (i 1).val = 0 then layer0 x h mk Wih0 Whh0 bih0 bhh0 (i 0) (i 2)
    else layer1 x h mk Wih0 Whh0 bih0 bhh0 Wih1 Whh1 bih1 bhh1 (i 0) (i 2)
end

end Cert.GruSpec

end
-- ==== Proof.KernelOps.lean ====
/-
  The kernel body's layout operations read at coordinates, at the ideal instance: the weight product as a sum over
  the 512 input units, the three gate column groups cut out of a 256 × 1536 product, a bias block of 8 identical rows
  stacked 32 times into 256 rows, and the unit axes that come and go around the hidden state's layer axis.
-/
import proofs.«147533_g23510650978938_cont_8to1_1664_20_alg».proof.Proof.Gen.KernelIdeal
import proofs.«147533_g23510650978938_cont_8to1_1664_20_alg».proof.Proof.Gen.KernelIdeal.Skeleton
import proofs.«147533_g23510650978938_cont_8to1_1664_20_alg».proof.Proof.GruSpec
import Idealize.ShloMosaic.Lib.Pipeline.Value
import Idealize.ShloMosaic.Lib.ValueIdx
import Idealize.ShloMosaic.PureOps.Ideal.Laws

noncomputable section

open scoped BigOperators

namespace Cert.KernelGru

open Cert.KernelIdeal Cert.GruSpec Idealize.ShloMosaic Idealize.ShloMosaic.ValueIdx
open Cert.KernelIdeal.Facts₀

/-! ## The product with the transposed weights -/

theorem dot_lhs0 (i : S256x1536.Idx) (q : dot_S256x512_S1536x512_S256x1536_1_1_0_0_n_n.contr.Idx) :
    (dot_S256x512_S1536x512_S256x1536_1_1_0_0_n_n.lhsIdx i q 0).val = (i 0).val := by
  unfold DotDims.lhsIdx
  rw [dif_neg (show ¬(0 : Fin S256x512.rank) ∈ dot_S256x512_S1536x512_S256x1536_1_1_0_0_n_n.lhsBatch by decide),
    dif_pos (show (0 : Fin S256x512.rank) ∈ dot_S256x512_S1536x512_S256x1536_1_1_0_0_n_n.lhsNonContracting by decide)]
  rfl

theorem dot_lhs1 (i : S256x1536.Idx) (q : dot_S256x512_S1536x512_S256x1536_1_1_0_0_n_n.contr.Idx) :
    (dot_S256x512_S1536x512_S256x1536_1_1_0_0_n_n.lhsIdx i q 1).val = (q ⟨0, by decide⟩).val :=
  dot_S256x512_S1536x512_S256x1536_1_1_0_0_n_n.lhsIdx_val_of_single rfl i q

theorem dot_rhs0 (i : S256x1536.Idx) (q : dot_S256x512_S1536x512_S256x1536_1_1_0_0_n_n.contr.Idx) :
    (dot_S256x512_S1536x512_S256x1536_1_1_0_0_n_n.rhsIdx i q 0).val = (i 1).val := by
  unfold DotDims.rhsIdx
  rw [dif_neg (show ¬(0 : Fin S1536x512.rank) ∈ dot_S256x512_S1536x512_S256x1536_1_1_0_0_n_n.rhsBatch by decide),
    dif_pos (show (0 : Fin S1536x512.rank) ∈ dot_S256x512_S1536x512_S256x1536_1_1_0_0_n_n.rhsNonContracting by decide)]
  rfl

theorem dot_rhs1 (i : S256x1536.Idx) (q : dot_S256x512_S1536x512_S256x1536_1_1_0_0_n_n.contr.Idx) :
    (dot_S256x512_S1536x512_S256x1536_1_1_0_0_n_n.rhsIdx i q 1).val = (q ⟨0, by decide⟩).val :=
  dot_S256x512_S1536x512_S256x1536_1_1_0_0_n_n.rhsIdx_val_of_single rfl i q

/-- Entry `(p, j)` of the product into the zero accumulator is the sum over the input units of row `p` of the
    activation against row `j` of the weights. -/
theorem matmul_at (a : FVec Ideal S256x512 .f32) (W : FVec Ideal S1536x512 .f32) (p : Fin 256) (j : Fin 1536) :
    matmul dot_S256x512_S1536x512_S256x1536_1_1_0_0_n_n none a W (constant (F := Ideal) S256x1536 .f32 0x00000000#32) (ix2 p j)
      = proj (actOf a) (wtOf W) p j := by
  simp only [matmul]
  rw [Ideal.matmul_constant_zero_apply,
    ← Equiv.sum_comp (contrEquiv1 dot_S256x512_S1536x512_S256x1536_1_1_0_0_n_n 512 rfl rfl).symm]
  unfold proj actOf wtOf
  refine Finset.sum_congr rfl fun k _ => ?_
  have hk := contrEquiv1_symm_val dot_S256x512_S1536x512_S256x1536_1_1_0_0_n_n 512 rfl rfl k
  have el : dot_S256x512_S1536x512_S256x1536_1_1_0_0_n_n.lhsIdx (ix2 p j)
      ((contrEquiv1 dot_S256x512_S1536x512_S256x1536_1_1_0_0_n_n 512 rfl rfl).symm k) = ix2 p k :=
    funext fun a => Fin.ext (by
      match a with
      | ⟨0, _⟩ => exact dot_lhs0 _ _
      | ⟨1, _⟩ => exact (dot_lhs1 _ _).trans hk)
  have er : dot_S256x512_S1536x512_S256x1536_1_1_0_0_n_n.rhsIdx (ix2 p j)
      ((contrEquiv1 dot_S256x512_S1536x512_S256x1536_1_1_0_0_n_n 512 rfl rfl).symm k) = ix2 j k :=
    funext fun a => Fin.ext (by
      match a with
      | ⟨0, _⟩ => exact dot_rhs0 _ _
      | ⟨1, _⟩ => exact (dot_rhs1 _ _).trans hk)
  rw [el, er]

/-! ## The gate column groups -/

/-- Columns `0 … 511` of a 256 × 1536 array: the reset gate's. -/
theorem sliceR_at (g : FVec Ideal S256x1536 .f32) (p : Fin 256) (q : Fin 512) :
    extractStridedSlice S256x512 ![0, 0] g slices_S256x1536_o0_0_S256x512 (ix2 p q) = g (ix2 p (colR q)) :=
  extractStridedSlice_apply ![0, 0] g _ (ix2 p q) (ix2 p (colR q)) (fun a => by
    match a with
    | ⟨0, _⟩ => show p.val = 0 + p.val; omega
    | ⟨1, _⟩ => show q.val = 0 + q.val; omega)

/-- Columns `512 … 1023`: the update gate's. -/
theorem sliceZ_at (g : FVec Ideal S256x1536 .f32) (p : Fin 256) (q : Fin 512) :
    extractStridedSlice S256x512 ![0, 512] g slices_S256x1536_o0_512_S256x512 (ix2 p q) = g (ix2 p (colZ q)) :=
  extractStridedSlice_apply ![0, 512] g _ (ix2 p q) (ix2 p (colZ q)) (fun a => by
    match a with
    | ⟨0, _⟩ => show p.val = 0 + p.val; omega
    | ⟨1, _⟩ => show q.val + 512 = 512 + q.val; omega)

/-- Columns `1024 … 1535`: the candidate's. -/
theorem sliceN_at (g : FVec Ideal S256x1536 .f32) (p : Fin 256) (q : Fin 512) :
    extractStridedSlice S256x512 ![0, 1024] g slices_S256x1536_o0_1024_S256x512 (ix2 p q) = g (ix2 p (colN q)) :=
  extractStridedSlice_apply ![0, 1024] g _ (ix2 p q) (ix2 p (colN q)) (fun a => by
    match a with
    | ⟨0, _⟩ => show p.val = 0 + p.val; omega
    | ⟨1, _⟩ => show q.val + 1024 = 1024 + q.val; omega)

/-! ## A block of 8 rows stacked 32 times -/

/-- Row `p` of the stack is row `p mod 8` of the block. -/
theorem tile_at (v : FVec Ideal S8x512 .f32) (p : Fin 256) (q : Fin 512) :
    concatenate S256x512 0 (List.ofFn fun _ : Fin 32 => (⟨S8x512, v⟩ : (s : Shape) × (s.Idx → Ideal .f32)))
        concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S256x512_d0 (ix2 p q)
      = v (ix2 (⟨p.val % 8, Nat.mod_lt _ (by decide)⟩ : Fin 8) q) :=
  concatenate_ofFn_apply (t := S256x512) (s₁ := S8x512) (0 : Fin 2) (fun _ : Fin 32 => v) _ rfl 8 rfl (ix2 p q)
    (⟨p.val / 8, by have := p.isLt; omega⟩ : Fin 32) rfl
    (ix2 (⟨p.val % 8, Nat.mod_lt _ (by decide)⟩ : Fin 8) q) rfl
    (fun b hb => by match b with | ⟨0, _⟩ => exact absurd rfl hb | ⟨1, _⟩ => rfl)

/-! ## Unit axes -/

/-- A 256 × 1 × 512 slab read as 256 × 512. -/
theorem squeeze3_at (v : Vec Ideal S256x1x512 .f32) (p : Fin 256) (k : Fin 512) :
    shapeCast S256x512 v shapeCasts_S256x1x512_S256x512 (ix2 p k) = v (ix3 p 0 k) :=
  shapeCast_apply v _ (ix2 p k) (ix3 p 0 k) (by
    rw [Shape.rowMajor_val_three, Shape.rowMajor_val_two]
    show (p.val * 1 + 0) * 512 + k.val = p.val * 512 + k.val
    omega)

/-- And back: 256 × 512 read as a 256 × 1 × 512 slab. -/
theorem unsqueeze3_at (v : FVec Ideal S256x512 .f32) (p : Fin 256) (k : Fin 512) :
    shapeCast S256x1x512 v shapeCasts_S256x512_S256x1x512 (ix3 p 0 k) = v (ix2 p k) :=
  shapeCast_apply v _ (ix3 p 0 k) (ix2 p k) (by
    rw [Shape.rowMajor_val_three, Shape.rowMajor_val_two]
    show p.val * 512 + k.val = (p.val * 1 + 0) * 512 + k.val
    omega)

/-- A 1 × 1 × 8 × 512 bias block read as 8 × 512. -/
theorem squeeze4_at (v : Vec Ideal S1x1x8x512 .f32) (s : Fin 8) (q : Fin 512) :
    shapeCast S8x512 v shapeCasts_S1x1x8x512_S8x512 (ix2 s q) = v (ix4 0 0 s q) :=
  shapeCast_apply v _ (ix2 s q) (ix4 0 0 s q) (by
    rw [Shape.rowMajor_val_four, Shape.rowMajor_val_two]
    show ((0 * 1 + 0) * 8 + s.val) * 512 + q.val = s.val * 512 + q.val
    omega)

/-- A 1 × 8 × 512 bias block read as 8 × 512. -/
theorem squeeze1_at (v : Vec Ideal S1x8x512 .f32) (s : Fin 8) (q : Fin 512) :
    shapeCast S8x512 v shapeCasts_S1x8x512_S8x512 (ix2 s q) = v (ix3 0 s q) :=
  shapeCast_apply v _ (ix2 s q) (ix3 0 s q) (by
    rw [Shape.rowMajor_val_three, Shape.rowMajor_val_two]
    show (0 * 8 + s.val) * 512 + q.val = s.val * 512 + q.val
    omega)

/-- The mask column spread over the 512 hidden units. -/
theorem maskCol_at (v0 : Vec Ideal S256x1 .f32) (p : Fin 256) (k : Fin 512) :
    Gen.k0_pay3 v0 (ix2 p k) = v0 (ix2 p 0) := by
  unfold Gen.k0_pay3
  rw [shapeCast_self, shapeCast_self]
  exact broadcastTo_apply v0 _ (ix2 p k) (ix2 p 0) (fun a => by
    match a with
    | ⟨0, _⟩ => show p.val = (if (256 : Nat) = 1 then 0 else p.val); rw [if_neg (by decide)]
    | ⟨1, _⟩ => show 0 = (if (1 : Nat) = 1 then 0 else k.val); rw [if_pos rfl])

end Cert.KernelGru

end
-- ==== Proof.KernelCell.lean ====
/-
  The kernel body's values at a row `p` and hidden unit `q`: each payload of the body as the layer's formula over
  what it reads, then the two layers composed. The biases reach the body as blocks of 8 identical rows, stacked into
  256 rows inside it: row `p` of a stack is row `p mod 8` of its block, and every row of a block is the same bias
  entry, which is what the hypotheses on the blocks say.
-/
import proofs.«147533_g23510650978938_cont_8to1_1664_20_alg».proof.Proof.KernelOps

noncomputable section

open scoped BigOperators

namespace Cert.KernelGru

open Cert.KernelIdeal Cert.GruSpec Idealize.ShloMosaic Idealize.ShloMosaic.ValueIdx
open Cert.KernelIdeal.Facts₀

/-- Row `p`'s row inside a block of 8. -/
def r8 (p : Fin 256) : Fin 8 := ⟨p.val % 8, Nat.mod_lt _ (by decide)⟩

/-- The stack as the body spells it, operand by operand. -/
theorem tile_lit_at (v : FVec Ideal S8x512 .f32) (p : Fin 256) (q : Fin 512) :
    concatenate S256x512 0 [⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩] concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S256x512_d0 (ix2 p q) = v (ix2 (r8 p) q) :=
  tile_at v p q

/-! ## The masked hidden state -/

theorem hm0_at (v0 : Vec Ideal S256x1 .f32) (v4 : Vec Ideal S256x1x512 .f32) (p : Fin 256) (k : Fin 512) :
    Gen.k0_pay4 v0 v4 (ix2 p k) = v4 (ix3 p 0 k) * v0 (ix2 p 0) := by
  unfold Gen.k0_pay4
  show shapeCast S256x512 v4 shapeCasts_S256x1x512_S256x512 (ix2 p k) * Gen.k0_pay3 v0 (ix2 p k) = _
  rw [squeeze3_at, maskCol_at]

theorem hm1_at (v0 : Vec Ideal S256x1 .f32) (v7 : Vec Ideal S256x1x512 .f32) (p : Fin 256) (k : Fin 512) :
    Gen.k0_pay5 v0 v7 (ix2 p k) = v7 (ix3 p 0 k) * v0 (ix2 p 0) := by
  unfold Gen.k0_pay5
  show shapeCast S256x512 v7 shapeCasts_S256x1x512_S256x512 (ix2 p k) * Gen.k0_pay3 v0 (ix2 p k) = _
  rw [squeeze3_at, maskCol_at]

/-! ## The first layer -/

theorem projI0_at (v10 : Vec Ideal S256x512 .f32) (v11 : Vec Ideal S1536x512 .f32) (p : Fin 256) (j : Fin 1536) :
    Gen.k0_pay6 v10 v11 (ix2 p j) = proj (actOf v10) (wtOf v11) p j := by
  unfold Gen.k0_pay6
  exact matmul_at v10 v11 p j

theorem projH0_at (v0 : Vec Ideal S256x1 .f32) (v4 : Vec Ideal S256x1x512 .f32) (v13 : Vec Ideal S1536x512 .f32)
    (p : Fin 256) (j : Fin 1536) :
    Gen.k0_pay7 v0 v4 v13 (ix2 p j) = proj (actOf (Gen.k0_pay4 v0 v4)) (wtOf v13) p j := by
  unfold Gen.k0_pay7
  exact matmul_at (Gen.k0_pay4 v0 v4) v13 p j

theorem gateR0_at (v0 : Vec Ideal S256x1 .f32) (v4 : Vec Ideal S256x1x512 .f32) (v10 : Vec Ideal S256x512 .f32)
    (v11 v13 : Vec Ideal S1536x512 .f32) (v18 : Vec Ideal S1x1x8x512 .f32) (p : Fin 256) (q : Fin 512) :
    Gen.k0_pay8 v0 v4 v10 v11 v13 v18 (ix2 p q)
      = Ideal.logistic ((proj (actOf v10) (wtOf v11) p (colR q) + proj (actOf (Gen.k0_pay4 v0 v4)) (wtOf v13) p (colR q))
          + v18 (ix4 0 0 (r8 p) q)) := by
  unfold Gen.k0_pay8
  show Ideal.logistic ((extractStridedSlice S256x512 ![0, 0] (Gen.k0_pay6 v10 v11) slices_S256x1536_o0_0_S256x512 (ix2 p q)
      + extractStridedSlice S256x512 ![0, 0] (Gen.k0_pay7 v0 v4 v13) slices_S256x1536_o0_0_S256x512 (ix2 p q))
      + concatenate S256x512 0 _ _ (ix2 p q)) = _
  rw [tile_lit_at, sliceR_at, sliceR_at, squeeze4_at, projI0_at, projH0_at]

theorem gateZ0_at (v0 : Vec Ideal S256x1 .f32) (v4 : Vec Ideal S256x1x512 .f32) (v10 : Vec Ideal S256x512 .f32)
    (v11 v13 : Vec Ideal S1536x512 .f32) (v26 : Vec Ideal S1x1x8x512 .f32) (p : Fin 256) (q : Fin 512) :
    Gen.k0_pay9 v0 v4 v10 v11 v13 v26 (ix2 p q)
      = Ideal.logistic ((proj (actOf v10) (wtOf v11) p (colZ q) + proj (actOf (Gen.k0_pay4 v0 v4)) (wtOf v13) p (colZ q))
          + v26 (ix4 0 0 (r8 p) q)) := by
  unfold Gen.k0_pay9
  show Ideal.logistic ((extractStridedSlice S256x512 ![0, 512] (Gen.k0_pay6 v10 v11) slices_S256x1536_o0_512_S256x512 (ix2 p q)
      + extractStridedSlice S256x512 ![0, 512] (Gen.k0_pay7 v0 v4 v13) slices_S256x1536_o0_512_S256x512 (ix2 p q))
      + concatenate S256x512 0 _ _ (ix2 p q)) = _
  rw [tile_lit_at, sliceZ_at, sliceZ_at, squeeze4_at, projI0_at, projH0_at]

theorem candI0_at (v10 : Vec Ideal S256x512 .f32) (v11 : Vec Ideal S1536x512 .f32) (p : Fin 256) (q : Fin 512) :
    Gen.k0_pay10 v10 v11 (ix2 p q) = proj (actOf v10) (wtOf v11) p (colN q) := by
  unfold Gen.k0_pay10
  show extractStridedSlice S256x512 ![0, 1024] (Gen.k0_pay6 v10 v11) slices_S256x1536_o0_1024_S256x512 (ix2 p q) = _
  rw [sliceN_at, projI0_at]

/-- The first layer's combination of its gates, over whatever the gates are. -/
theorem combine0_at (v6 : FVec Ideal S256x512 .f32) (v14 : FVec Ideal S256x1536 .f32) (v22 v30 v31 : FVec Ideal S256x512 .f32)
    (v32 v37 : Vec Ideal S1x8x512 .f32) (p : Fin 256) (q : Fin 512) :
    Gen.k0_pay11 v6 v14 v22 v30 v31 v32 v37 (ix2 p q)
      = (one - v30 (ix2 p q))
          * Ideal.tanh ((v31 (ix2 p q) + v32 (ix3 0 (r8 p) q))
              + v22 (ix2 p q) * (v14 (ix2 p (colN q)) + v37 (ix3 0 (r8 p) q)))
        + v30 (ix2 p q) * v6 (ix2 p q) := by
  unfold Gen.k0_pay11
  show (one - v30 (ix2 p q))
      * Ideal.tanh ((v31 (ix2 p q) + concatenate S256x512 0 _ _ (ix2 p q))
          + v22 (ix2 p q) * (extractStridedSlice S256x512 ![0, 1024] v14 slices_S256x1536_o0_1024_S256x512 (ix2 p q)
              + concatenate S256x512 0 _ _ (ix2 p q)))
      + v30 (ix2 p q) * v6 (ix2 p q) = _
  rw [tile_lit_at, tile_lit_at, sliceN_at, squeeze1_at, squeeze1_at]

end Cert.KernelGru

end
-- ==== Proof.KernelLayers.lean ====
/-
  The two layers of the kernel body, whole: the first layer's payload is the layer formula of the input row and the
  masked first hidden state; the second layer's is the same formula of the first layer's result and the masked
  second hidden state. The two pre-activations of the reset and update gates reach the body with the two biases
  already added together, so the body's grouping is "projections first, bias sum second"; regrouping a sum of four
  extended reals needs only commutativity and associativity.
-/
import proofs.«147533_g23510650978938_cont_8to1_1664_20_alg».proof.Proof.KernelCell

noncomputable section

open scoped BigOperators

namespace Cert.KernelGru

open Cert.KernelIdeal Cert.GruSpec Idealize.ShloMosaic Idealize.ShloMosaic.ValueIdx
open Cert.KernelIdeal.Facts₀

/-! ## The first layer, whole -/

theorem layer0_at (v0 : Vec Ideal S256x1 .f32) (v4 : Vec Ideal S256x1x512 .f32) (v10 : Vec Ideal S256x512 .f32)
    (v11 v13 : Vec Ideal S1536x512 .f32) (v18 v26 : Vec Ideal S1x1x8x512 .f32) (v32 v37 : Vec Ideal S1x8x512 .f32)
    (bi bh : Bias)
    (hR : ∀ (s : Fin 8) (q : Fin 512), v18 (ix4 0 0 s q) = bi (colR q) + bh (colR q))
    (hZ : ∀ (s : Fin 8) (q : Fin 512), v26 (ix4 0 0 s q) = bi (colZ q) + bh (colZ q))
    (hN : ∀ (s : Fin 8) (q : Fin 512), v32 (ix3 0 s q) = bi (colN q))
    (hH : ∀ (s : Fin 8) (q : Fin 512), v37 (ix3 0 s q) = bh (colN q))
    (p : Fin 256) (q : Fin 512) :
    Gen.k0_pay11 (Gen.k0_pay4 v0 v4) (Gen.k0_pay7 v0 v4 v13) (Gen.k0_pay8 v0 v4 v10 v11 v13 v18)
        (Gen.k0_pay9 v0 v4 v10 v11 v13 v26) (Gen.k0_pay10 v10 v11) v32 v37 (ix2 p q)
      = cell (actOf v10) (actOf (Gen.k0_pay4 v0 v4)) (wtOf v11) (wtOf v13) bi bh p q := by
  rw [combine0_at, gateR0_at, gateZ0_at, candI0_at, projH0_at, hR, hZ, hN, hH]
  exact cell_grouped (actOf v10) (actOf (Gen.k0_pay4 v0 v4)) (wtOf v11) (wtOf v13) bi bh p q

/-! ## The second layer -/

theorem projI1_at (v6 : FVec Ideal S256x512 .f32) (v14 : FVec Ideal S256x1536 .f32) (v22 v30 v31 : FVec Ideal S256x512 .f32)
    (v32 v37 : Vec Ideal S1x8x512 .f32) (v52 : Vec Ideal S1536x512 .f32) (p : Fin 256) (j : Fin 1536) :
    Gen.k0_pay13 v6 v14 v22 v30 v31 v32 v37 v52 (ix2 p j)
      = proj (actOf (Gen.k0_pay11 v6 v14 v22 v30 v31 v32 v37)) (wtOf v52) p j := by
  unfold Gen.k0_pay13
  exact matmul_at (Gen.k0_pay11 v6 v14 v22 v30 v31 v32 v37) v52 p j

theorem projH1_at (v9 : FVec Ideal S256x512 .f32) (v54 : Vec Ideal S1536x512 .f32) (p : Fin 256) (j : Fin 1536) :
    Gen.k0_pay14 v9 v54 (ix2 p j) = proj (actOf v9) (wtOf v54) p j := by
  unfold Gen.k0_pay14
  exact matmul_at v9 v54 p j

theorem gateR1_at (v6 v9 : FVec Ideal S256x512 .f32) (v14 : FVec Ideal S256x1536 .f32) (v22 v30 v31 : FVec Ideal S256x512 .f32)
    (v32 v37 : Vec Ideal S1x8x512 .f32) (v52 v54 : Vec Ideal S1536x512 .f32) (v59 : Vec Ideal S1x1x8x512 .f32)
    (p : Fin 256) (q : Fin 512) :
    Gen.k0_pay15 v6 v9 v14 v22 v30 v31 v32 v37 v52 v54 v59 (ix2 p q)
      = Ideal.logistic ((proj (actOf (Gen.k0_pay11 v6 v14 v22 v30 v31 v32 v37)) (wtOf v52) p (colR q)
            + proj (actOf v9) (wtOf v54) p (colR q))
          + v59 (ix4 0 0 (r8 p) q)) := by
  unfold Gen.k0_pay15
  show Ideal.logistic ((extractStridedSlice S256x512 ![0, 0] (Gen.k0_pay13 v6 v14 v22 v30 v31 v32 v37 v52) slices_S256x1536_o0_0_S256x512 (ix2 p q)
      + extractStridedSlice S256x512 ![0, 0] (Gen.k0_pay14 v9 v54) slices_S256x1536_o0_0_S256x512 (ix2 p q))
      + concatenate S256x512 0 _ _ (ix2 p q)) = _
  rw [tile_lit_at, sliceR_at, sliceR_at, squeeze4_at, projI1_at, projH1_at]

theorem preZ1_at (v6 v9 : FVec Ideal S256x512 .f32) (v14 : FVec Ideal S256x1536 .f32) (v22 v30 v31 : FVec Ideal S256x512 .f32)
    (v32 v37 : Vec Ideal S1x8x512 .f32) (v52 v54 : Vec Ideal S1536x512 .f32) (v67 : Vec Ideal S1x1x8x512 .f32)
    (p : Fin 256) (q : Fin 512) :
    Gen.k0_pay16 v6 v9 v14 v22 v30 v31 v32 v37 v52 v54 v67 (ix2 p q)
      = (proj (actOf (Gen.k0_pay11 v6 v14 v22 v30 v31 v32 v37)) (wtOf v52) p (colZ q)
            + proj (actOf v9) (wtOf v54) p (colZ q))
          + v67 (ix4 0 0 (r8 p) q) := by
  unfold Gen.k0_pay16
  show (extractStridedSlice S256x512 ![0, 512] (Gen.k0_pay13 v6 v14 v22 v30 v31 v32 v37 v52) slices_S256x1536_o0_512_S256x512 (ix2 p q)
      + extractStridedSlice S256x512 ![0, 512] (Gen.k0_pay14 v9 v54) slices_S256x1536_o0_512_S256x512 (ix2 p q))
      + concatenate S256x512 0 _ _ (ix2 p q) = _
  rw [tile_lit_at, sliceZ_at, sliceZ_at, squeeze4_at, projI1_at, projH1_at]

/-- The second layer's combination of its gates (it applies the update gate's sigmoid itself). -/
theorem combine1_at (v9 : FVec Ideal S256x512 .f32) (v53 v55 : FVec Ideal S256x1536 .f32) (v63 v70 : FVec Ideal S256x512 .f32)
    (v73 v78 : Vec Ideal S1x8x512 .f32) (p : Fin 256) (q : Fin 512) :
    Gen.k0_pay1 v9 v53 v55 v63 v70 v73 v78 (ix2 p q)
      = (one - Ideal.logistic (v70 (ix2 p q)))
          * Ideal.tanh ((v53 (ix2 p (colN q)) + v73 (ix3 0 (r8 p) q))
              + v63 (ix2 p q) * (v55 (ix2 p (colN q)) + v78 (ix3 0 (r8 p) q)))
        + Ideal.logistic (v70 (ix2 p q)) * v9 (ix2 p q) := by
  unfold Gen.k0_pay1
  show (one - Ideal.logistic (v70 (ix2 p q)))
      * Ideal.tanh ((extractStridedSlice S256x512 ![0, 1024] v53 slices_S256x1536_o0_1024_S256x512 (ix2 p q)
              + concatenate S256x512 0 _ _ (ix2 p q))
          + v63 (ix2 p q) * (extractStridedSlice S256x512 ![0, 1024] v55 slices_S256x1536_o0_1024_S256x512 (ix2 p q)
              + concatenate S256x512 0 _ _ (ix2 p q)))
      + Ideal.logistic (v70 (ix2 p q)) * v9 (ix2 p q) = _
  rw [tile_lit_at, tile_lit_at, sliceN_at, sliceN_at, squeeze1_at, squeeze1_at]

/-- The second layer, whole, over whatever the first layer's result `h0` and the masked second hidden state are. -/
theorem layer1_at (v6 v9 : FVec Ideal S256x512 .f32) (v14 : FVec Ideal S256x1536 .f32) (v22 v30 v31 : FVec Ideal S256x512 .f32)
    (v32 v37 : Vec Ideal S1x8x512 .f32) (v52 v54 : Vec Ideal S1536x512 .f32) (v59 v67 : Vec Ideal S1x1x8x512 .f32)
    (v73 v78 : Vec Ideal S1x8x512 .f32) (bi bh : Bias)
    (hR : ∀ (s : Fin 8) (q : Fin 512), v59 (ix4 0 0 s q) = bi (colR q) + bh (colR q))
    (hZ : ∀ (s : Fin 8) (q : Fin 512), v67 (ix4 0 0 s q) = bi (colZ q) + bh (colZ q))
    (hN : ∀ (s : Fin 8) (q : Fin 512), v73 (ix3 0 s q) = bi (colN q))
    (hH : ∀ (s : Fin 8) (q : Fin 512), v78 (ix3 0 s q) = bh (colN q))
    (p : Fin 256) (q : Fin 512) :
    Gen.k0_pay1 v9 (Gen.k0_pay13 v6 v14 v22 v30 v31 v32 v37 v52) (Gen.k0_pay14 v9 v54)
        (Gen.k0_pay15 v6 v9 v14 v22 v30 v31 v32 v37 v52 v54 v59) (Gen.k0_pay16 v6 v9 v14 v22 v30 v31 v32 v37 v52 v54 v67)
        v73 v78 (ix2 p q)
      = cell (actOf (Gen.k0_pay11 v6 v14 v22 v30 v31 v32 v37)) (actOf v9) (wtOf v52) (wtOf v54) bi bh p q := by
  rw [combine1_at, gateR1_at, preZ1_at, projI1_at, projH1_at, hR, hZ, hN, hH]
  exact cell_grouped (actOf (Gen.k0_pay11 v6 v14 v22 v30 v31 v32 v37)) (actOf v9) (wtOf v52) (wtOf v54) bi bh p q

/-! ## The masked hidden states as the specification's -/

/-- The stored state's row `l`, times the mask read as 1 or 0, is that row where the mask is set and zero elsewhere
    (on the extended reals `x · 0 = 0` for every `x`, infinite or not). -/
theorem hidden0_of (v0 : Vec Ideal S256x1 .f32) (v4 : Vec Ideal S256x1x512 .f32)
    (h : (⟨3, ![256, 2, 512]⟩ : Shape).Idx → EReal) (mk : (⟨2, ![256, 1]⟩ : Shape).Idx → BitVec 1) (l : Fin 2)
    (hv0 : ∀ p : Fin 256, v0 (ix2 p 0) = if mk (ix2 p 0) = 1#1 then 1 else 0)
    (hv4 : ∀ (p : Fin 256) (k : Fin 512), v4 (ix3 p 0 k) = h (ix3 p l k)) :
    actOf (Gen.k0_pay4 v0 v4) = hidden h mk l := by
  funext p k
  show Gen.k0_pay4 v0 v4 (ix2 p k) = _
  rw [hm0_at, hv0, hv4]
  unfold GruSpec.hidden
  by_cases hb : mk (ix2 p 0) = 1#1
  · rw [if_pos hb, if_pos hb, mul_one]
  · rw [if_neg hb, if_neg hb, mul_zero]

theorem hidden1_of (v0 : Vec Ideal S256x1 .f32) (v7 : Vec Ideal S256x1x512 .f32)
    (h : (⟨3, ![256, 2, 512]⟩ : Shape).Idx → EReal) (mk : (⟨2, ![256, 1]⟩ : Shape).Idx → BitVec 1) (l : Fin 2)
    (hv0 : ∀ p : Fin 256, v0 (ix2 p 0) = if mk (ix2 p 0) = 1#1 then 1 else 0)
    (hv7 : ∀ (p : Fin 256) (k : Fin 512), v7 (ix3 p 0 k) = h (ix3 p l k)) :
    actOf (Gen.k0_pay5 v0 v7) = hidden h mk l := by
  funext p k
  show Gen.k0_pay5 v0 v7 (ix2 p k) = _
  rw [hm1_at, hv0, hv7]
  unfold GruSpec.hidden
  by_cases hb : mk (ix2 p 0) = 1#1
  · rw [if_pos hb, if_pos hb, mul_one]
  · rw [if_neg hb, if_neg hb, mul_zero]

end Cert.KernelGru

end
-- ==== Proof.KernelBlocks.lean ====
/-
  The kernel has no grid: its one step sees every operand whole. Each window's block is its whole array, and the
  body reads the hidden state's two layers, the four reset/update bias blocks and the four candidate bias blocks as
  sub-boxes of those arrays at fixed offsets. This module says which array entry each such read is.
-/
import proofs.«147533_g23510650978938_cont_8to1_1664_20_alg».proof.Proof.Gen.KernelIdeal.Frame
import proofs.«147533_g23510650978938_cont_8to1_1664_20_alg».proof.Proof.KernelLayers

noncomputable section

namespace Cert.KernelGru

open Cert.KernelIdeal Cert.KernelIdeal.Gen Cert.GruSpec Idealize.ShloMosaic Idealize.ShloMosaic.TcCoe Idealize.SL.Sem
open Idealize.ShloMosaic.ValueIdx

variable (m : (ℓ : Loc nD τ sig) → Buf (Elt Ideal) ℓ)

/-! ## A window's block is its whole array -/

theorem iblk_0 (c : Dev nD) (t : Fin cfg0.N) : iblk m c 0 t = V m c main_arg0 := by
  funext j
  show V m c main_arg0 (((cfg0.win 0).blk t).view.emb j) = _
  congr 1
  funext a
  apply Fin.ext
  match a with
  | ⟨0, _⟩ => show 0 * 256 + 1 * (j 0).val = (j 0).val; omega
  | ⟨1, _⟩ => show 0 * 512 + 1 * (j 1).val = (j 1).val; omega

theorem iblk_1 (c : Dev nD) (t : Fin cfg0.N) : iblk m c 1 t = V m c main_arg1 := by
  funext j
  show V m c main_arg1 (((cfg0.win 1).blk t).view.emb j) = _
  congr 1
  funext a
  apply Fin.ext
  match a with
  | ⟨0, _⟩ => show 0 * 256 + 1 * (j 0).val = (j 0).val; omega
  | ⟨1, _⟩ => show 0 * 2 + 1 * (j 1).val = (j 1).val; omega
  | ⟨2, _⟩ => show 0 * 512 + 1 * (j 2).val = (j 2).val; omega

theorem iblk_2 (c : Dev nD) (t : Fin cfg0.N) : iblk m c 2 t = V m c main_v0 := by
  funext j
  show V m c main_v0 (((cfg0.win 2).blk t).view.emb j) = _
  congr 1
  funext a
  apply Fin.ext
  match a with
  | ⟨0, _⟩ => show 0 * 256 + 1 * (j 0).val = (j 0).val; omega
  | ⟨1, _⟩ => show 0 * 1 + 1 * (j 1).val = (j 1).val; omega

theorem iblk_3 (c : Dev nD) (t : Fin cfg0.N) : iblk m c 3 t = V m c main_v8 := by
  funext j
  show V m c main_v8 (((cfg0.win 3).blk t).view.emb j) = _
  congr 1
  funext a
  apply Fin.ext
  match a with
  | ⟨0, _⟩ => show 0 * 2 + 1 * (j 0).val = (j 0).val; omega
  | ⟨1, _⟩ => show 0 * 2 + 1 * (j 1).val = (j 1).val; omega
  | ⟨2, _⟩ => show 0 * 8 + 1 * (j 2).val = (j 2).val; omega
  | ⟨3, _⟩ => show 0 * 512 + 1 * (j 3).val = (j 3).val; omega

theorem iblk_4 (c : Dev nD) (t : Fin cfg0.N) : iblk m c 4 t = V m c main_v15 := by
  funext j
  show V m c main_v15 (((cfg0.win 4).blk t).view.emb j) = _
  congr 1
  funext a
  apply Fin.ext
  match a with
  | ⟨0, _⟩ => show 0 * 2 + 1 * (j 0).val = (j 0).val; omega
  | ⟨1, _⟩ => show 0 * 8 + 1 * (j 1).val = (j 1).val; omega
  | ⟨2, _⟩ => show 0 * 512 + 1 * (j 2).val = (j 2).val; omega

theorem iblk_5 (c : Dev nD) (t : Fin cfg0.N) : iblk m c 5 t = V m c main_v22 := by
  funext j
  show V m c main_v22 (((cfg0.win 5).blk t).view.emb j) = _
  congr 1
  funext a
  apply Fin.ext
  match a with
  | ⟨0, _⟩ => show 0 * 2 + 1 * (j 0).val = (j 0).val; omega
  | ⟨1, _⟩ => show 0 * 8 + 1 * (j 1).val = (j 1).val; omega
  | ⟨2, _⟩ => show 0 * 512 + 1 * (j 2).val = (j 2).val; omega

theorem iblk_6 (c : Dev nD) (t : Fin cfg0.N) : iblk m c 6 t = V m c main_arg3 := by
  funext j
  show V m c main_arg3 (((cfg0.win 6).blk t).view.emb j) = _
  congr 1
  funext a
  apply Fin.ext
  match a with
  | ⟨0, _⟩ => show 0 * 1536 + 1 * (j 0).val = (j 0).val; omega
  | ⟨1, _⟩ => show 0 * 512 + 1 * (j 1).val = (j 1).val; omega

theorem iblk_7 (c : Dev nD) (t : Fin cfg0.N) : iblk m c 7 t = V m c main_arg4 := by
  funext j
  show V m c main_arg4 (((cfg0.win 7).blk t).view.emb j) = _
  congr 1
  funext a
  apply Fin.ext
  match a with
  | ⟨0, _⟩ => show 0 * 1536 + 1 * (j 0).val = (j 0).val; omega
  | ⟨1, _⟩ => show 0 * 512 + 1 * (j 1).val = (j 1).val; omega

theorem iblk_8 (c : Dev nD) (t : Fin cfg0.N) : iblk m c 8 t = V m c main_arg7 := by
  funext j
  show V m c main_arg7 (((cfg0.win 8).blk t).view.emb j) = _
  congr 1
  funext a
  apply Fin.ext
  match a with
  | ⟨0, _⟩ => show 0 * 1536 + 1 * (j 0).val = (j 0).val; omega
  | ⟨1, _⟩ => show 0 * 512 + 1 * (j 1).val = (j 1).val; omega

theorem iblk_9 (c : Dev nD) (t : Fin cfg0.N) : iblk m c 9 t = V m c main_arg8 := by
  funext j
  show V m c main_arg8 (((cfg0.win 9).blk t).view.emb j) = _
  congr 1
  funext a
  apply Fin.ext
  match a with
  | ⟨0, _⟩ => show 0 * 1536 + 1 * (j 0).val = (j 0).val; omega
  | ⟨1, _⟩ => show 0 * 512 + 1 * (j 1).val = (j 1).val; omega

/-! ## The body's reads of sub-boxes -/

theorem ld_h0 (X : Vec Ideal S256x2x512 .f32) (p : Fin 256) (k : Fin 512) : View.ld X r0_1 (ix3 p 0 k) = X (ix3 p 0 k) := by
  show X (r0_1.idx (ix3 p 0 k)) = _
  congr 1; funext a; apply Fin.ext
  match a with
  | ⟨0, _⟩ => show 0 + 1 * p.val = p.val; omega
  | ⟨1, _⟩ => show 0 + 1 * 0 = 0; omega
  | ⟨2, _⟩ => show 0 + 1 * k.val = k.val; omega

theorem ld_h1 (X : Vec Ideal S256x2x512 .f32) (p : Fin 256) (k : Fin 512) : View.ld X r0_2 (ix3 p 0 k) = X (ix3 p 1 k) := by
  show X (r0_2.idx (ix3 p 0 k)) = _
  congr 1; funext a; apply Fin.ext
  match a with
  | ⟨0, _⟩ => show 0 + 1 * p.val = p.val; omega
  | ⟨1, _⟩ => show 1 + 1 * 0 = 1; omega
  | ⟨2, _⟩ => show 0 + 1 * k.val = k.val; omega

theorem ld_rz00 (X : Vec Ideal S2x2x8x512 .f32) (s : Fin 8) (q : Fin 512) : View.ld X r0_5 (ix4 0 0 s q) = X (ix4 0 0 s q) := by
  show X (r0_5.idx (ix4 0 0 s q)) = _
  congr 1; funext a; apply Fin.ext
  match a with
  | ⟨0, _⟩ => show 0 + 1 * 0 = 0; omega
  | ⟨1, _⟩ => show 0 + 1 * 0 = 0; omega
  | ⟨2, _⟩ => show 0 + 1 * s.val = s.val; omega
  | ⟨3, _⟩ => show 0 + 1 * q.val = q.val; omega

theorem ld_rz01 (X : Vec Ideal S2x2x8x512 .f32) (s : Fin 8) (q : Fin 512) : View.ld X r0_6 (ix4 0 0 s q) = X (ix4 0 1 s q) := by
  show X (r0_6.idx (ix4 0 0 s q)) = _
  congr 1; funext a; apply Fin.ext
  match a with
  | ⟨0, _⟩ => show 0 + 1 * 0 = 0; omega
  | ⟨1, _⟩ => show 1 + 1 * 0 = 1; omega
  | ⟨2, _⟩ => show 0 + 1 * s.val = s.val; omega
  | ⟨3, _⟩ => show 0 + 1 * q.val = q.val; omega

theorem ld_rz10 (X : Vec Ideal S2x2x8x512 .f32) (s : Fin 8) (q : Fin 512) : View.ld X r0_8 (ix4 0 0 s q) = X (ix4 1 0 s q) := by
  show X (r0_8.idx (ix4 0 0 s q)) = _
  congr 1; funext a; apply Fin.ext
  match a with
  | ⟨0, _⟩ => show 1 + 1 * 0 = 1; omega
  | ⟨1, _⟩ => show 0 + 1 * 0 = 0; omega
  | ⟨2, _⟩ => show 0 + 1 * s.val = s.val; omega
  | ⟨3, _⟩ => show 0 + 1 * q.val = q.val; omega

theorem ld_rz11 (X : Vec Ideal S2x2x8x512 .f32) (s : Fin 8) (q : Fin 512) : View.ld X r0_9 (ix4 0 0 s q) = X (ix4 1 1 s q) := by
  show X (r0_9.idx (ix4 0 0 s q)) = _
  congr 1; funext a; apply Fin.ext
  match a with
  | ⟨0, _⟩ => show 1 + 1 * 0 = 1; omega
  | ⟨1, _⟩ => show 1 + 1 * 0 = 1; omega
  | ⟨2, _⟩ => show 0 + 1 * s.val = s.val; omega
  | ⟨3, _⟩ => show 0 + 1 * q.val = q.val; omega

theorem ld_n0 (X : Vec Ideal S2x8x512 .f32) (s : Fin 8) (q : Fin 512) : View.ld X r0_7 (ix3 0 s q) = X (ix3 0 s q) := by
  show X (r0_7.idx (ix3 0 s q)) = _
  congr 1; funext a; apply Fin.ext
  match a with
  | ⟨0, _⟩ => show 0 + 1 * 0 = 0; omega
  | ⟨1, _⟩ => show 0 + 1 * s.val = s.val; omega
  | ⟨2, _⟩ => show 0 + 1 * q.val = q.val; omega

theorem ld_n1 (X : Vec Ideal S2x8x512 .f32) (s : Fin 8) (q : Fin 512) : View.ld X r0_10 (ix3 0 s q) = X (ix3 1 s q) := by
  show X (r0_10.idx (ix3 0 s q)) = _
  congr 1; funext a; apply Fin.ext
  match a with
  | ⟨0, _⟩ => show 1 + 1 * 0 = 1; omega
  | ⟨1, _⟩ => show 0 + 1 * s.val = s.val; omega
  | ⟨2, _⟩ => show 0 + 1 * q.val = q.val; omega

theorem zeros2 : (![0, 0] : Fin 2 → Nat) = fun _ => 0 := funext fun a => by fin_cases a <;> rfl

end Cert.KernelGru

end
-- ==== Proof.KernelValue.lean ====
/-
  The kernel's two result arrays after its run, as the layer formulas of the argument arrays.

  The step's reads are whole arrays or fixed sub-boxes of them; the arrays the host prepared before the step (the
  mask as a number, the biases as blocks of 8 equal rows) enter through the hypotheses `HostFacts`. The first result
  is written by one store of the whole 256 × 512 block; the second by two stores, layer 0's slab and layer 1's slab
  of the 256 × 2 × 512 block, which together cover it.
-/
import proofs.«147533_g23510650978938_cont_8to1_1664_20_alg».proof.Proof.Gen.KernelIdeal.Frame
import proofs.«147533_g23510650978938_cont_8to1_1664_20_alg».proof.Proof.KernelBlocks
import Idealize.ShloMosaic.Lib.Pipeline.Value

noncomputable section

namespace Cert.KernelGru

open Cert.KernelIdeal Cert.KernelIdeal.Gen Cert.GruSpec Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

section Body
variable (c : Dev nD)

/-! ## The argument arrays -/

abbrev a0 : (⟨2, ![256, 512]⟩ : Shape).Idx → EReal := m ((c.tc : Thread nD τ).loc main_arg0)
abbrev a1 : (⟨3, ![256, 2, 512]⟩ : Shape).Idx → EReal := m ((c.tc : Thread nD τ).loc main_arg1)
abbrev a2 : (⟨2, ![256, 1]⟩ : Shape).Idx → BitVec 1 := m ((c.tc : Thread nD τ).loc main_arg2)
abbrev a3 : (⟨2, ![1536, 512]⟩ : Shape).Idx → EReal := m ((c.tc : Thread nD τ).loc main_arg3)
abbrev a4 : (⟨2, ![1536, 512]⟩ : Shape).Idx → EReal := m ((c.tc : Thread nD τ).loc main_arg4)
abbrev a5 : (⟨1, ![1536]⟩ : Shape).Idx → EReal := m ((c.tc : Thread nD τ).loc main_arg5)
abbrev a6 : (⟨1, ![1536]⟩ : Shape).Idx → EReal := m ((c.tc : Thread nD τ).loc main_arg6)
abbrev a7 : (⟨2, ![1536, 512]⟩ : Shape).Idx → EReal := m ((c.tc : Thread nD τ).loc main_arg7)
abbrev a8 : (⟨2, ![1536, 512]⟩ : Shape).Idx → EReal := m ((c.tc : Thread nD τ).loc main_arg8)
abbrev a9 : (⟨1, ![1536]⟩ : Shape).Idx → EReal := m ((c.tc : Thread nD τ).loc main_arg9)
abbrev a10 : (⟨1, ![1536]⟩ : Shape).Idx → EReal := m ((c.tc : Thread nD τ).loc main_arg10)

/-- The first result as the specification states it. -/
def G10 : (⟨2, ![256, 512]⟩ : Shape).Idx → EReal := GruSpec.out (a0 m c) (a1 m c) (a2 m c) (a3 m c) (a4 m c) (a5 m c) (a6 m c) (a7 m c) (a8 m c) (a9 m c) (a10 m c)
/-- The second result as the specification states it. -/
def G11 : (⟨3, ![256, 2, 512]⟩ : Shape).Idx → EReal := GruSpec.newHidden (a0 m c) (a1 m c) (a2 m c) (a3 m c) (a4 m c) (a5 m c) (a6 m c) (a7 m c) (a8 m c) (a9 m c) (a10 m c)

/-! ## What the step reads -/

abbrev bX : Vec Ideal S256x512 .f32 := View.ld (V m c main_arg0) r0_3
abbrev bH0 : Vec Ideal S256x1x512 .f32 := View.ld (V m c main_arg1) r0_1
abbrev bH1 : Vec Ideal S256x1x512 .f32 := View.ld (V m c main_arg1) r0_2
abbrev bM : Vec Ideal S256x1 .f32 := View.ld (V m c main_v0) r0_0
abbrev bRZ00 : Vec Ideal S1x1x8x512 .f32 := View.ld (V m c main_v8) r0_5
abbrev bRZ01 : Vec Ideal S1x1x8x512 .f32 := View.ld (V m c main_v8) r0_6
abbrev bRZ10 : Vec Ideal S1x1x8x512 .f32 := View.ld (V m c main_v8) r0_8
abbrev bRZ11 : Vec Ideal S1x1x8x512 .f32 := View.ld (V m c main_v8) r0_9
abbrev bIN0 : Vec Ideal S1x8x512 .f32 := View.ld (V m c main_v15) r0_7
abbrev bIN1 : Vec Ideal S1x8x512 .f32 := View.ld (V m c main_v15) r0_10
abbrev bHN0 : Vec Ideal S1x8x512 .f32 := View.ld (V m c main_v22) r0_7
abbrev bHN1 : Vec Ideal S1x8x512 .f32 := View.ld (V m c main_v22) r0_10
abbrev bWih0 : Vec Ideal S1536x512 .f32 := View.ld (V m c main_arg3) r0_4
abbrev bWhh0 : Vec Ideal S1536x512 .f32 := View.ld (V m c main_arg4) r0_4
abbrev bWih1 : Vec Ideal S1536x512 .f32 := View.ld (V m c main_arg7) r0_4
abbrev bWhh1 : Vec Ideal S1536x512 .f32 := View.ld (V m c main_arg8) r0_4

/-- The first layer's new hidden state as the step computes it. -/
abbrev h0n : FVec Ideal S256x512 .f32 := Gen.k0_pay11 (Gen.k0_pay4 (bM m c) (bH0 m c)) (Gen.k0_pay7 (bM m c) (bH0 m c) (bWhh0 m c)) (Gen.k0_pay8 (bM m c) (bH0 m c) (bX m c) (bWih0 m c) (bWhh0 m c) (bRZ00 m c)) (Gen.k0_pay9 (bM m c) (bH0 m c) (bX m c) (bWih0 m c) (bWhh0 m c) (bRZ01 m c)) (Gen.k0_pay10 (bX m c) (bWih0 m c)) (bIN0 m c) (bHN0 m c)
/-- The second layer's. -/
abbrev h1n : FVec Ideal S256x512 .f32 := Gen.k0_pay1 (Gen.k0_pay5 (bM m c) (bH1 m c)) (Gen.k0_pay13 (Gen.k0_pay4 (bM m c) (bH0 m c)) (Gen.k0_pay7 (bM m c) (bH0 m c) (bWhh0 m c)) (Gen.k0_pay8 (bM m c) (bH0 m c) (bX m c) (bWih0 m c) (bWhh0 m c) (bRZ00 m c)) (Gen.k0_pay9 (bM m c) (bH0 m c) (bX m c) (bWih0 m c) (bWhh0 m c) (bRZ01 m c)) (Gen.k0_pay10 (bX m c) (bWih0 m c)) (bIN0 m c) (bHN0 m c) (bWih1 m c)) (Gen.k0_pay14 (Gen.k0_pay5 (bM m c) (bH1 m c)) (bWhh1 m c)) (Gen.k0_pay15 (Gen.k0_pay4 (bM m c) (bH0 m c)) (Gen.k0_pay5 (bM m c) (bH1 m c)) (Gen.k0_pay7 (bM m c) (bH0 m c) (bWhh0 m c)) (Gen.k0_pay8 (bM m c) (bH0 m c) (bX m c) (bWih0 m c) (bWhh0 m c) (bRZ00 m c)) (Gen.k0_pay9 (bM m c) (bH0 m c) (bX m c) (bWih0 m c) (bWhh0 m c) (bRZ01 m c)) (Gen.k0_pay10 (bX m c) (bWih0 m c)) (bIN0 m c) (bHN0 m c) (bWih1 m c) (bWhh1 m c) (bRZ10 m c)) (Gen.k0_pay16 (Gen.k0_pay4 (bM m c) (bH0 m c)) (Gen.k0_pay5 (bM m c) (bH1 m c)) (Gen.k0_pay7 (bM m c) (bH0 m c) (bWhh0 m c)) (Gen.k0_pay8 (bM m c) (bH0 m c) (bX m c) (bWih0 m c) (bWhh0 m c) (bRZ00 m c)) (Gen.k0_pay9 (bM m c) (bH0 m c) (bX m c) (bWih0 m c) (bWhh0 m c) (bRZ01 m c)) (Gen.k0_pay10 (bX m c) (bWih0 m c)) (bIN0 m c) (bHN0 m c) (bWih1 m c) (bWhh1 m c) (bRZ11 m c)) (bIN1 m c) (bHN1 m c)

/-- What the host operations before the step leave in the arrays the step reads: the mask as the number 1 or 0,
    and each bias block's every row equal to the bias entries of its gate (the reset and update blocks hold the two
    biases' sum). -/
structure HostFacts : Prop where
  mask : ∀ p : Fin 256, V m c main_v0 (ix2 p 0) = if a2 m c (ix2 p 0) = 1#1 then (1 : EReal) else 0
  brz00 : ∀ (s : Fin 8) (q : Fin 512), V m c main_v8 (ix4 0 0 s q) = a5 m c (ix1 (colR q)) + a6 m c (ix1 (colR q))
  brz01 : ∀ (s : Fin 8) (q : Fin 512), V m c main_v8 (ix4 0 1 s q) = a5 m c (ix1 (colZ q)) + a6 m c (ix1 (colZ q))
  brz10 : ∀ (s : Fin 8) (q : Fin 512), V m c main_v8 (ix4 1 0 s q) = a9 m c (ix1 (colR q)) + a10 m c (ix1 (colR q))
  brz11 : ∀ (s : Fin 8) (q : Fin 512), V m c main_v8 (ix4 1 1 s q) = a9 m c (ix1 (colZ q)) + a10 m c (ix1 (colZ q))
  bin0 : ∀ (s : Fin 8) (q : Fin 512), V m c main_v15 (ix3 0 s q) = a5 m c (ix1 (colN q))
  bin1 : ∀ (s : Fin 8) (q : Fin 512), V m c main_v15 (ix3 1 s q) = a9 m c (ix1 (colN q))
  bhn0 : ∀ (s : Fin 8) (q : Fin 512), V m c main_v22 (ix3 0 s q) = a6 m c (ix1 (colN q))
  bhn1 : ∀ (s : Fin 8) (q : Fin 512), V m c main_v22 (ix3 1 s q) = a10 m c (ix1 (colN q))

theorem bX_eq : bX m c = a0 m c := (View.ld_unit_zero (S := S256x512) zeros2 _ _).trans (V_main_arg0 m c)
theorem bWih0_eq : bWih0 m c = a3 m c := (View.ld_unit_zero (S := S1536x512) zeros2 _ _).trans (V_main_arg3 m c)
theorem bWhh0_eq : bWhh0 m c = a4 m c := (View.ld_unit_zero (S := S1536x512) zeros2 _ _).trans (V_main_arg4 m c)
theorem bWih1_eq : bWih1 m c = a7 m c := (View.ld_unit_zero (S := S1536x512) zeros2 _ _).trans (V_main_arg7 m c)
theorem bWhh1_eq : bWhh1 m c = a8 m c := (View.ld_unit_zero (S := S1536x512) zeros2 _ _).trans (V_main_arg8 m c)
theorem bM_eq : bM m c = V m c main_v0 := View.ld_unit_zero (S := S256x1) zeros2 _ _

variable {m c}

theorem hidden0_eq (hf : HostFacts m c) : actOf (Gen.k0_pay4 (bM m c) (bH0 m c)) = hidden (a1 m c) (a2 m c) 0 :=
  hidden0_of (bM m c) (bH0 m c) (a1 m c) (a2 m c) 0
    (fun p => (congrFun (bM_eq m c) (ix2 p 0)).trans (hf.mask p))
    (fun p k => (ld_h0 (V m c main_arg1) p k).trans (congrFun (V_main_arg1 m c) (ix3 p 0 k)))

theorem hidden1_eq (hf : HostFacts m c) : actOf (Gen.k0_pay5 (bM m c) (bH1 m c)) = hidden (a1 m c) (a2 m c) 1 :=
  hidden1_of (bM m c) (bH1 m c) (a1 m c) (a2 m c) 1
    (fun p => (congrFun (bM_eq m c) (ix2 p 0)).trans (hf.mask p))
    (fun p k => (ld_h1 (V m c main_arg1) p k).trans (congrFun (V_main_arg1 m c) (ix3 p 1 k)))

/-- The step's first layer is the specification's. -/
theorem body_layer0 (hf : HostFacts m c) :
    actOf (h0n m c) = layer0 (a0 m c) (a1 m c) (a2 m c) (a3 m c) (a4 m c) (a5 m c) (a6 m c) := by
  funext p q
  show h0n m c (ix2 p q) = _
  refine (layer0_at (bM m c) (bH0 m c) (bX m c) (bWih0 m c) (bWhh0 m c) (bRZ00 m c) (bRZ01 m c) (bIN0 m c) (bHN0 m c)
    (biasOf (a5 m c)) (biasOf (a6 m c))
    (fun s q => (ld_rz00 (V m c main_v8) s q).trans (hf.brz00 s q))
    (fun s q => (ld_rz01 (V m c main_v8) s q).trans (hf.brz01 s q))
    (fun s q => (ld_n0 (V m c main_v15) s q).trans (hf.bin0 s q))
    (fun s q => (ld_n0 (V m c main_v22) s q).trans (hf.bhn0 s q)) p q).trans ?_
  unfold layer0
  rw [hidden0_eq hf, bX_eq, bWih0_eq, bWhh0_eq]

/-- The step's second layer is the specification's. -/
theorem body_layer1 (hf : HostFacts m c) :
    actOf (h1n m c) = layer1 (a0 m c) (a1 m c) (a2 m c) (a3 m c) (a4 m c) (a5 m c) (a6 m c) (a7 m c) (a8 m c) (a9 m c) (a10 m c) := by
  funext p q
  show h1n m c (ix2 p q) = _
  refine (layer1_at (Gen.k0_pay4 (bM m c) (bH0 m c)) (Gen.k0_pay5 (bM m c) (bH1 m c)) (Gen.k0_pay7 (bM m c) (bH0 m c) (bWhh0 m c)) (Gen.k0_pay8 (bM m c) (bH0 m c) (bX m c) (bWih0 m c) (bWhh0 m c) (bRZ00 m c)) (Gen.k0_pay9 (bM m c) (bH0 m c) (bX m c) (bWih0 m c) (bWhh0 m c) (bRZ01 m c)) (Gen.k0_pay10 (bX m c) (bWih0 m c)) (bIN0 m c) (bHN0 m c) (bWih1 m c) (bWhh1 m c) (bRZ10 m c) (bRZ11 m c) (bIN1 m c) (bHN1 m c)
    (biasOf (a9 m c)) (biasOf (a10 m c))
    (fun s q => (ld_rz10 (V m c main_v8) s q).trans (hf.brz10 s q))
    (fun s q => (ld_rz11 (V m c main_v8) s q).trans (hf.brz11 s q))
    (fun s q => (ld_n1 (V m c main_v15) s q).trans (hf.bin1 s q))
    (fun s q => (ld_n1 (V m c main_v22) s q).trans (hf.bhn1 s q)) p q).trans ?_
  unfold layer1
  rw [show actOf (Gen.k0_pay11 (Gen.k0_pay4 (bM m c) (bH0 m c)) (Gen.k0_pay7 (bM m c) (bH0 m c) (bWhh0 m c)) (Gen.k0_pay8 (bM m c) (bH0 m c) (bX m c) (bWih0 m c) (bWhh0 m c) (bRZ00 m c)) (Gen.k0_pay9 (bM m c) (bH0 m c) (bX m c) (bWih0 m c) (bWhh0 m c) (bRZ01 m c)) (Gen.k0_pay10 (bX m c) (bWih0 m c)) (bIN0 m c) (bHN0 m c)) = layer0 (a0 m c) (a1 m c) (a2 m c) (a3 m c) (a4 m c) (a5 m c) (a6 m c) from body_layer0 hf,
    hidden1_eq hf, bWih1_eq, bWhh1_eq]

end Body

end Cert.KernelGru

end
-- ==== Proof.KernelPrelude.lean ====
/-
  What the arrays hold when the kernel's region starts, for the four arrays the program computes from its
  arguments beforehand.

  * The episode mask, a column of 256 bits, is converted to floats: a set bit becomes one, a clear bit zero.
  * The reset and update gates add their two biases before anything else, so the program adds the input-side
    and hidden-side bias vectors of each layer, stacks the two layers' sums as the rows of a 2 × 1536 array,
    regroups each row of 1536 = 3 · 512 entries as three groups of 512 (reset, update, candidate), keeps the
    first two groups, and repeats every row of 512 over 8 sublanes. Entry (l, g, s, q) of the result is therefore
    entry g · 512 + q of layer l's summed bias, whatever s is.
  * The candidate gate keeps its two biases apart (the hidden-side one is scaled by the reset gate), so each
    is stacked and regrouped alone, the third group kept and repeated likewise: entry (l, s, q) of the result
    is entry 1024 + q of layer l's bias.

  The stacking, regrouping and slicing are the same three times over; they are stated once for any two
  vectors, and the four arrays are then read entry by entry.
-/
import proofs.«147533_g23510650978938_cont_8to1_1664_20_alg».proof.Proof.Gen.KernelIdeal.Frame
import proofs.«147533_g23510650978938_cont_8to1_1664_20_alg».proof.Proof.GruSpec
import Idealize.ShloMosaic.Lib.StableHlo.Run
import Idealize.ShloMosaic.Lib.Pipeline.Value
import Idealize.ShloMosaic.Lib.ValueIdx

noncomputable section

namespace Cert.KernelPrelude

open Idealize.ShloMosaic Idealize.ShloMosaic.TcCoe Idealize.ShloMosaic.ValueIdx Idealize.ShloMosaic.StableHlo
open Cert.KernelIdeal Cert.KernelIdeal.Gen Cert.GruSpec

variable (m : (ℓ : Loc nD τ sig) → Buf (Elt Ideal) ℓ) (c : Dev nD)

/-! ## The three bias chains, over any element type

Two vectors of 1536 entries are stacked as the two rows of a 2 × 1536 array, and that array is regrouped as
2 × 3 × 1 × 512: entry `(l, g, 0, q)` is entry `g · 512 + q` of vector `l`. -/

section Generic
variable {α : Type}

/-- The two vectors stacked and regrouped. -/
def stack (u v : S1536.Idx → α) : S2x3x1x512.Idx → α :=
  shapeCast S2x3x1x512
    (concatenate S2x1536 0
      [⟨S1x1536, broadcastInDim S1x1536 ![1] bcast_S1536_S1x1536_1 u⟩,
       ⟨S1x1536, broadcastInDim S1x1536 ![1] bcast_S1536_S1x1536_1 v⟩]
      concatenates_S1x1536_S1x1536_S2x1536_d0)
    shapeCasts_S2x1536_S2x3x1x512

/-- Row-major positions agree: `(l, g, 0, q)` of 2 × 3 × 1 × 512 is `(l, g · 512 + q)` of 2 × 1536. -/
theorem stack_pos (l : Fin 2) (g : Fin 3) (q : Fin 512) (j : Fin 1536) (hj : j.val = g.val * 512 + q.val) :
    (S2x1536.rowMajor (ix2 l j)).val = (S2x3x1x512.rowMajor (ix4 l g (0 : Fin 1) q)).val := by
  rw [Shape.rowMajor_val_two, Shape.rowMajor_val_four]
  show l.val * 1536 + j.val = ((l.val * 3 + g.val) * 1 + 0) * 512 + q.val
  omega

/-- The first row of the stack is the first vector. -/
theorem stack_zero (u v : S1536.Idx → α) (g : Fin 3) (q : Fin 512) (j : Fin 1536) (hj : j.val = g.val * 512 + q.val) :
    stack u v (ix4 (0 : Fin 2) g (0 : Fin 1) q) = u (ix1 j) := by
  unfold stack
  refine (shapeCast_apply _ _ (ix4 (0 : Fin 2) g (0 : Fin 1) q) (ix2 (0 : Fin 2) j) (stack_pos 0 g q j hj)).trans ?_
  refine (concatenate_pair_apply_left (t := S2x1536) (s₁ := S1x1536) (s₂ := S1x1536) (0 : Fin 2) _ _ _ (ix2 (0 : Fin 2) j) rfl (ix2 (0 : Fin 1) j)
    (fun b => match b with | ⟨0, _⟩ => rfl | ⟨1, _⟩ => rfl)).trans ?_
  exact broadcastInDim_apply _ _ _ (ix2 (0 : Fin 1) j) (ix1 j) (fun a => match a with | ⟨0, _⟩ => rfl)

/-- The second row of the stack is the second vector. -/
theorem stack_one (u v : S1536.Idx → α) (g : Fin 3) (q : Fin 512) (j : Fin 1536) (hj : j.val = g.val * 512 + q.val) :
    stack u v (ix4 (1 : Fin 2) g (0 : Fin 1) q) = v (ix1 j) := by
  unfold stack
  refine (shapeCast_apply _ _ (ix4 (1 : Fin 2) g (0 : Fin 1) q) (ix2 (1 : Fin 2) j) (stack_pos 1 g q j hj)).trans ?_
  refine (concatenate_pair_apply_right (t := S2x1536) (s₁ := S1x1536) (s₂ := S1x1536) (0 : Fin 2) _ _ _ (ix2 (1 : Fin 2) j) rfl rfl (ix2 (0 : Fin 1) j)
    (fun b => match b with | ⟨0, _⟩ => fun h => absurd rfl h | ⟨1, _⟩ => fun _ => rfl) rfl).trans ?_
  exact broadcastInDim_apply _ _ _ (ix2 (0 : Fin 1) j) (ix1 j) (fun a => match a with | ⟨0, _⟩ => rfl)

/-- The reset and update groups of the regrouped stack, each row repeated over 8 sublanes. -/
def rzOf (w : S2x3x1x512.Idx → α) : S2x2x8x512.Idx → α :=
  broadcastInDim S2x2x8x512 ![0, 1, 2, 3] bcast_S2x2x1x512_S2x2x8x512_0_1_2_3
    (extractStridedSlice S2x2x1x512 ![0, 0, 0, 0] w slices_S2x3x1x512_S2x2x1x512_0_0_0_0)

/-- Entry `(l, g, s, q)` of the repeated groups is entry `(l, g, 0, q)` of the regrouped stack, whatever the sublane. -/
theorem rzOf_apply (w : S2x3x1x512.Idx → α) (l g : Fin 2) (s : Fin 8) (q : Fin 512) (g' : Fin 3) (hg : g'.val = g.val) :
    rzOf w (ix4 l g s q) = w (ix4 l g' (0 : Fin 1) q) := by
  unfold rzOf
  refine (broadcastInDim_apply _ _ _ (ix4 l g s q) (ix4 l g (0 : Fin 1) q)
    (fun a => match a with | ⟨0, _⟩ => rfl | ⟨1, _⟩ => rfl | ⟨2, _⟩ => rfl | ⟨3, _⟩ => rfl)).trans ?_
  exact extractStridedSlice_apply _ _ _ (ix4 l g (0 : Fin 1) q) (ix4 l g' (0 : Fin 1) q)
    (fun a => match a with
      | ⟨0, _⟩ => by show l.val = 0 + l.val; omega
      | ⟨1, _⟩ => by show g'.val = 0 + g.val; omega
      | ⟨2, _⟩ => by show (0 : Nat) = 0 + 0; omega
      | ⟨3, _⟩ => by show q.val = 0 + q.val; omega)

/-- The candidate group of the regrouped stack, each row repeated over 8 sublanes. -/
def candOf (w : S2x3x1x512.Idx → α) : S2x8x512.Idx → α :=
  broadcastInDim S2x8x512 ![0, 1, 2] bcast_S2x1x512_S2x8x512_0_1_2
    (shapeCast S2x1x512
      (extractStridedSlice S2x1x1x512 ![0, 2, 0, 0] w slices_S2x3x1x512_S2x1x1x512_0_2_0_0)
      shapeCasts_S2x1x1x512_S2x1x512)

/-- Entry `(l, s, q)` of the repeated candidate group is entry `(l, 2, 0, q)` of the regrouped stack. -/
theorem candOf_apply (w : S2x3x1x512.Idx → α) (l : Fin 2) (s : Fin 8) (q : Fin 512) :
    candOf w (ix3 l s q) = w (ix4 l (2 : Fin 3) (0 : Fin 1) q) := by
  unfold candOf
  refine (broadcastInDim_apply _ _ _ (ix3 l s q) (ix3 l (0 : Fin 1) q)
    (fun a => match a with | ⟨0, _⟩ => rfl | ⟨1, _⟩ => rfl | ⟨2, _⟩ => rfl)).trans ?_
  refine (shapeCast_apply _ _ (ix3 l (0 : Fin 1) q) (ix4 l (0 : Fin 1) (0 : Fin 1) q) (by
    rw [Shape.rowMajor_val_four, Shape.rowMajor_val_three]
    show ((l.val * 1 + 0) * 1 + 0) * 512 + q.val = (l.val * 1 + 0) * 512 + q.val
    omega)).trans ?_
  exact extractStridedSlice_apply _ _ _ (ix4 l (0 : Fin 1) (0 : Fin 1) q) (ix4 l (2 : Fin 3) (0 : Fin 1) q)
    (fun a => match a with
      | ⟨0, _⟩ => by show l.val = 0 + l.val; omega
      | ⟨1, _⟩ => by show (2 : Nat) = 2 + 0; omega
      | ⟨2, _⟩ => by show (0 : Nat) = 0 + 0; omega
      | ⟨3, _⟩ => by show q.val = 0 + q.val; omega)

end Generic

/-! ## What the host operations leave in the arrays the region reads

Each array is the launch contents of the arguments pushed through its chain of operations. -/

/-- The mask array holds the mask bits converted to floats. -/
theorem v0_eq : (V m c main_v0 : S256x1.Idx → EReal)
    = uitofp (F := Ideal) .f32 ((m ((c : Thread nD τ).loc main_arg2)) : S256x1.Idx → BitVec 1) := by
  dsimp only [Gen.V, Gen.hostOps0]; after_results

/-- The reset / update bias array: the two layers' summed biases, stacked, the first two groups kept. -/
theorem v8_eq : (V m c main_v8 : S2x2x8x512.Idx → EReal)
    = rzOf (α := EReal) (stack
        (addf (F := Ideal) (s := S1536) (φ := .f32) (m ((c : Thread nD τ).loc main_arg5)) (m ((c : Thread nD τ).loc main_arg6)))
        (addf (F := Ideal) (s := S1536) (φ := .f32) (m ((c : Thread nD τ).loc main_arg9)) (m ((c : Thread nD τ).loc main_arg10)))) := by
  dsimp only [Gen.V, Gen.hostOps0]; after_results; rfl

/-- The candidate's input-side bias array: the two layers' input biases, stacked, the last group kept. -/
theorem v15_eq : (V m c main_v15 : S2x8x512.Idx → EReal)
    = candOf (α := EReal) (stack (m ((c : Thread nD τ).loc main_arg5)) (m ((c : Thread nD τ).loc main_arg9))) := by
  dsimp only [Gen.V, Gen.hostOps0]; after_results; rfl

/-- The candidate's hidden-side bias array: the two layers' hidden biases, stacked, the last group kept. -/
theorem v22_eq : (V m c main_v22 : S2x8x512.Idx → EReal)
    = candOf (α := EReal) (stack (m ((c : Thread nD τ).loc main_arg6)) (m ((c : Thread nD τ).loc main_arg10))) := by
  dsimp only [Gen.V, Gen.hostOps0]; after_results; rfl

/-! ## The same, entry by entry -/

/-- A mask entry is its bit read as a natural number. -/
theorem mask (p : Fin 256) :
    (V m c main_v0 : S256x1.Idx → EReal) (ix2 p (0 : Fin 1))
      = (((((m ((c : Thread nD τ).loc main_arg2)) : S256x1.Idx → BitVec 1) (ix2 p (0 : Fin 1))).toNat : ℝ) : EReal) :=
  congrFun (v0_eq m c) _

/-- Where the bit is set the mask entry is one. -/
theorem mask_one (p : Fin 256) (h : ((m ((c : Thread nD τ).loc main_arg2)) : S256x1.Idx → BitVec 1) (ix2 p (0 : Fin 1)) = 1#1) :
    (V m c main_v0 : S256x1.Idx → EReal) (ix2 p (0 : Fin 1)) = (1 : EReal) := by
  rw [mask, h]
  show (((1 : ℕ) : ℝ) : EReal) = 1
  rw [Nat.cast_one, EReal.coe_one]

/-- Where the bit is not set the mask entry is zero. -/
theorem mask_zero (p : Fin 256) (h : ¬ ((m ((c : Thread nD τ).loc main_arg2)) : S256x1.Idx → BitVec 1) (ix2 p (0 : Fin 1)) = 1#1) :
    (V m c main_v0 : S256x1.Idx → EReal) (ix2 p (0 : Fin 1)) = (0 : EReal) := by
  rw [mask, eq_zero_of_ne_one h]
  show (((0 : ℕ) : ℝ) : EReal) = 0
  rw [Nat.cast_zero, EReal.coe_zero]

/-- A mask entry is one or zero as its bit is set or not. -/
theorem mask_ite (p : Fin 256) :
    (V m c main_v0 : S256x1.Idx → EReal) (ix2 p (0 : Fin 1))
      = if ((m ((c : Thread nD τ).loc main_arg2)) : S256x1.Idx → BitVec 1) (ix2 p (0 : Fin 1)) = 1#1 then (1 : EReal) else 0 := by
  by_cases h : ((m ((c : Thread nD τ).loc main_arg2)) : S256x1.Idx → BitVec 1) (ix2 p (0 : Fin 1)) = 1#1
  · rw [if_pos h]; exact mask_one m c p h
  · rw [if_neg h]; exact mask_zero m c p h

/-- Layer 0, reset rows: the two biases' sum. -/
theorem brz00 (s : Fin 8) (q : Fin 512) :
    (V m c main_v8 : S2x2x8x512.Idx → EReal) (ix4 (0 : Fin 2) (0 : Fin 2) s q)
      = biasOf (m ((c : Thread nD τ).loc main_arg5)) (colR q) + biasOf (m ((c : Thread nD τ).loc main_arg6)) (colR q) := by
  refine (congrFun (v8_eq m c) _).trans ?_
  refine (rzOf_apply _ 0 0 s q (0 : Fin 3) rfl).trans ?_
  exact stack_zero _ _ (0 : Fin 3) q (colR q) (by show q.val = 0 * 512 + q.val; omega)

/-- Layer 0, update rows. -/
theorem brz01 (s : Fin 8) (q : Fin 512) :
    (V m c main_v8 : S2x2x8x512.Idx → EReal) (ix4 (0 : Fin 2) (1 : Fin 2) s q)
      = biasOf (m ((c : Thread nD τ).loc main_arg5)) (colZ q) + biasOf (m ((c : Thread nD τ).loc main_arg6)) (colZ q) := by
  refine (congrFun (v8_eq m c) _).trans ?_
  refine (rzOf_apply _ 0 1 s q (1 : Fin 3) rfl).trans ?_
  exact stack_zero _ _ (1 : Fin 3) q (colZ q) (by show q.val + 512 = 1 * 512 + q.val; omega)

/-- Layer 1, reset rows. -/
theorem brz10 (s : Fin 8) (q : Fin 512) :
    (V m c main_v8 : S2x2x8x512.Idx → EReal) (ix4 (1 : Fin 2) (0 : Fin 2) s q)
      = biasOf (m ((c : Thread nD τ).loc main_arg9)) (colR q) + biasOf (m ((c : Thread nD τ).loc main_arg10)) (colR q) := by
  refine (congrFun (v8_eq m c) _).trans ?_
  refine (rzOf_apply _ 1 0 s q (0 : Fin 3) rfl).trans ?_
  exact stack_one _ _ (0 : Fin 3) q (colR q) (by show q.val = 0 * 512 + q.val; omega)

/-- Layer 1, update rows. -/
theorem brz11 (s : Fin 8) (q : Fin 512) :
    (V m c main_v8 : S2x2x8x512.Idx → EReal) (ix4 (1 : Fin 2) (1 : Fin 2) s q)
      = biasOf (m ((c : Thread nD τ).loc main_arg9)) (colZ q) + biasOf (m ((c : Thread nD τ).loc main_arg10)) (colZ q) := by
  refine (congrFun (v8_eq m c) _).trans ?_
  refine (rzOf_apply _ 1 1 s q (1 : Fin 3) rfl).trans ?_
  exact stack_one _ _ (1 : Fin 3) q (colZ q) (by show q.val + 512 = 1 * 512 + q.val; omega)

/-- Layer 0, candidate rows, input side. -/
theorem bin0 (s : Fin 8) (q : Fin 512) :
    (V m c main_v15 : S2x8x512.Idx → EReal) (ix3 (0 : Fin 2) s q) = biasOf (m ((c : Thread nD τ).loc main_arg5)) (colN q) := by
  refine (congrFun (v15_eq m c) _).trans ?_
  refine (candOf_apply _ 0 s q).trans ?_
  exact stack_zero _ _ (2 : Fin 3) q (colN q) (by show q.val + 1024 = 2 * 512 + q.val; omega)

/-- Layer 1, candidate rows, input side. -/
theorem bin1 (s : Fin 8) (q : Fin 512) :
    (V m c main_v15 : S2x8x512.Idx → EReal) (ix3 (1 : Fin 2) s q) = biasOf (m ((c : Thread nD τ).loc main_arg9)) (colN q) := by
  refine (congrFun (v15_eq m c) _).trans ?_
  refine (candOf_apply _ 1 s q).trans ?_
  exact stack_one _ _ (2 : Fin 3) q (colN q) (by show q.val + 1024 = 2 * 512 + q.val; omega)

/-- Layer 0, candidate rows, hidden side. -/
theorem bhn0 (s : Fin 8) (q : Fin 512) :
    (V m c main_v22 : S2x8x512.Idx → EReal) (ix3 (0 : Fin 2) s q) = biasOf (m ((c : Thread nD τ).loc main_arg6)) (colN q) := by
  refine (congrFun (v22_eq m c) _).trans ?_
  refine (candOf_apply _ 0 s q).trans ?_
  exact stack_zero _ _ (2 : Fin 3) q (colN q) (by show q.val + 1024 = 2 * 512 + q.val; omega)

/-- Layer 1, candidate rows, hidden side. -/
theorem bhn1 (s : Fin 8) (q : Fin 512) :
    (V m c main_v22 : S2x8x512.Idx → EReal) (ix3 (1 : Fin 2) s q) = biasOf (m ((c : Thread nD τ).loc main_arg10)) (colN q) := by
  refine (congrFun (v22_eq m c) _).trans ?_
  refine (candOf_apply _ 1 s q).trans ?_
  exact stack_one _ _ (2 : Fin 3) q (colN q) (by show q.val + 1024 = 2 * 512 + q.val; omega)

end Cert.KernelPrelude

end
-- ==== Proof.KernelRun.lean ====
/-
  From the step to the arrays. The grid has one point, whose two result blocks are the two result arrays whole; so
  what the point writes back is the whole array, and the run leaves each result array at the specification's
  function of the arguments. The host's preparation of the mask and the bias blocks is discharged here.
-/
import proofs.«147533_g23510650978938_cont_8to1_1664_20_alg».proof.Proof.Gen.KernelIdeal.Frame
import proofs.«147533_g23510650978938_cont_8to1_1664_20_alg».proof.Proof.KernelValue
import proofs.«147533_g23510650978938_cont_8to1_1664_20_alg».proof.Proof.KernelPrelude
import Idealize.ShloMosaic.Lib.Pipeline.Value

noncomputable section

namespace Cert.KernelGru

open Cert.KernelIdeal Cert.KernelIdeal.Gen Cert.GruSpec Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The host operations before the step leave the mask and the bias blocks as the step's proof needs them. -/
theorem hostFacts (c : Dev nD) : HostFacts m c where
  mask := Cert.KernelPrelude.mask_ite m c
  brz00 := Cert.KernelPrelude.brz00 m c
  brz01 := Cert.KernelPrelude.brz01 m c
  brz10 := Cert.KernelPrelude.brz10 m c
  brz11 := Cert.KernelPrelude.brz11 m c
  bin0 := Cert.KernelPrelude.bin0 m c
  bin1 := Cert.KernelPrelude.bin1 m c
  bhn0 := Cert.KernelPrelude.bhn0 m c
  bhn1 := Cert.KernelPrelude.bhn1 m c

/-! ## What the step leaves in its two result blocks -/

/-- The first result block is the second layer's new hidden state. -/
theorem out10_eq (c : Dev nD) :
    out0_10 (V m c main_arg0) (V m c main_arg1) (V m c main_v0) (V m c main_v8) (V m c main_v15) (V m c main_v22) (V m c main_arg3) (V m c main_arg4) (V m c main_arg7) (V m c main_arg8) = G10 m c := by
  unfold out0_10
  rw [View.canon_unit_zero zeros2]
  funext j
  obtain ⟨p, q, rfl⟩ : ∃ (p : Fin 256) (q : Fin 512), j = ix2 p q := ⟨j 0, j 1, eq_ix2 j⟩
  show h1n m c (ix2 p q) = _
  exact congrFun (congrFun (body_layer1 (hostFacts m c)) p) q

theorem emb_slab0 (p : Fin 256) (k : Fin 512) : (r0_1.emb (ix3 p 0 k) : S256x2x512.Idx) = ix3 p 0 k := by
  funext a; apply Fin.ext
  match a with
  | ⟨0, _⟩ => show 0 + 1 * p.val = p.val; omega
  | ⟨1, _⟩ => show 0 + 1 * 0 = 0; omega
  | ⟨2, _⟩ => show 0 + 1 * k.val = k.val; omega

theorem emb_slab1 (p : Fin 256) (k : Fin 512) : (r0_2.emb (ix3 p 0 k) : S256x2x512.Idx) = ix3 p 1 k := by
  funext a; apply Fin.ext
  match a with
  | ⟨0, _⟩ => show 0 + 1 * p.val = p.val; omega
  | ⟨1, _⟩ => show 1 + 1 * 0 = 1; omega
  | ⟨2, _⟩ => show 0 + 1 * k.val = k.val; omega

/-- An index of a 256 × 1 × 512 slab has middle coordinate 0. -/
theorem slab_idx (x : S256x1x512.Idx) : x = ix3 (x 0) 0 (x 2) := by
  funext a
  match a with
  | ⟨0, _⟩ => rfl
  | ⟨1, _⟩ => exact Fin.ext (by have h1 : (x 1).val < 1 := (x 1).isLt; show (x 1).val = 0; omega)
  | ⟨2, _⟩ => rfl

/-- The second result block: layer 0's slab and layer 1's slab, stored separately, cover it. -/
theorem out11_eq (c : Dev nD) :
    out0_11 (V m c main_arg0) (V m c main_arg1) (V m c main_v0) (V m c main_v8) (V m c main_v15) (V m c main_v22) (V m c main_arg3) (V m c main_arg4) (V m c main_arg7) (V m c main_arg8) = G11 m c := by
  funext y
  unfold out0_11
  refine View.canon_apply_of_pieces (Val := Elt Ideal) (S := S256x2x512) (e := .f32) (G11 m c) _ ?_ y (cover0_11 _ _ y)
  intro pc hpc
  rcases List.mem_cons.mp hpc with rfl | hpc
  · intro (x : S256x1x512.Idx)
    obtain ⟨p, k, rfl⟩ : ∃ (p : Fin 256) (k : Fin 512), x = ix3 p 0 k := ⟨x 0, x 2, slab_idx x⟩
    show Gen.k0_pay2 (F := Ideal) _ _ _ _ _ _ _ (ix3 p 0 k) = G11 m c (r0_2.emb (ix3 p 0 k))
    rw [emb_slab1]
    unfold Gen.k0_pay2
    refine (unsqueeze3_at _ p k).trans ?_
    refine (congrFun (congrFun (body_layer1 (hostFacts m c)) p) k).trans ?_
    unfold G11 newHidden
    exact (if_neg (show ¬ ((1 : Fin 2).val = 0) by decide)).symm
  rcases List.mem_cons.mp hpc with rfl | hpc
  · intro (x : S256x1x512.Idx)
    obtain ⟨p, k, rfl⟩ : ∃ (p : Fin 256) (k : Fin 512), x = ix3 p 0 k := ⟨x 0, x 2, slab_idx x⟩
    show Gen.k0_pay12 (F := Ideal) _ _ _ _ _ _ _ (ix3 p 0 k) = G11 m c (r0_1.emb (ix3 p 0 k))
    rw [emb_slab0]
    unfold Gen.k0_pay12
    refine (unsqueeze3_at _ p k).trans ?_
    refine (congrFun (congrFun (body_layer0 (hostFacts m c)) p) k).trans ?_
    unfold G11 newHidden
    exact (if_pos rfl).symm
  nomatch hpc

/-! ## The one grid point's blocks are the whole arrays -/

theorem emb_blk10 (t : Fin cfg0.N) (j : S256x512.Idx) : (((cfg0.win 10).blk t).view.emb j : S256x512.Idx) = j := by
  funext a; apply Fin.ext
  match a with
  | ⟨0, _⟩ => show 0 * 256 + 1 * (j 0).val = (j 0).val; omega
  | ⟨1, _⟩ => show 0 * 512 + 1 * (j 1).val = (j 1).val; omega

theorem emb_blk11 (t : Fin cfg0.N) (j : S256x2x512.Idx) : (((cfg0.win 11).blk t).view.emb j : S256x2x512.Idx) = j := by
  funext a; apply Fin.ext
  match a with
  | ⟨0, _⟩ => show 0 * 256 + 1 * (j 0).val = (j 0).val; omega
  | ⟨1, _⟩ => show 0 * 2 + 1 * (j 1).val = (j 1).val; omega
  | ⟨2, _⟩ => show 0 * 512 + 1 * (j 2).val = (j 2).val; omega

/-- What the point writes back to the first result array is the specification's array, read through the block. -/
theorem flushed10_eq (c : Dev nD) (t : Fin cfg0.N) :
    (dats m 0 c).flushed 10 t = ((cfg0.win 10).blk t).view.read (Elt Ideal) (G10 m c) := by
  show (cfg0.win 10).cut (grid0.coords t) ((dats m 0 c).after 10 t) = _
  rw [after0_10, iblk_0, iblk_1, iblk_2, iblk_3, iblk_4, iblk_5, iblk_6, iblk_7, iblk_8, iblk_9, out10_eq]
  funext j
  show G10 m c j = G10 m c (((cfg0.win 10).blk t).view.emb j)
  rw [emb_blk10]

theorem flushed11_eq (c : Dev nD) (t : Fin cfg0.N) :
    (dats m 0 c).flushed 11 t = ((cfg0.win 11).blk t).view.read (Elt Ideal) (G11 m c) := by
  show (cfg0.win 11).cut (grid0.coords t) ((dats m 0 c).after 11 t) = _
  rw [after0_11, iblk_0, iblk_1, iblk_2, iblk_3, iblk_4, iblk_5, iblk_6, iblk_7, iblk_8, iblk_9, out11_eq]
  funext j
  show G11 m c j = G11 m c (((cfg0.win 11).blk t).view.emb j)
  rw [emb_blk11]

/-- Every index of the first result array is in the one point's block. -/
theorem cover10 (i : S256x512.Idx) : ∃ t : Fin cfg0.N, (cfg0.win 10).flush t = true ∧ i ∈ ((cfg0.win 10).blk t).view.set := by
  refine ⟨t0_0, flush0_10 _, ?_⟩
  show i ∈ ((View.whole main_v23_0).slice (win0_10.rect t0_0)).set
  rw [View.set_slice_whole, Rect.mem_set_unit]
  intro a
  match a with
  | ⟨0, _⟩ => exact ⟨Nat.zero_le _, by show (i 0).val < 0 * 256 + 256; have hi : (i 0).val < 256 := (i 0).isLt; omega⟩
  | ⟨1, _⟩ => exact ⟨Nat.zero_le _, by show (i 1).val < 0 * 512 + 512; have hi : (i 1).val < 512 := (i 1).isLt; omega⟩

theorem cover11 (i : S256x2x512.Idx) : ∃ t : Fin cfg0.N, (cfg0.win 11).flush t = true ∧ i ∈ ((cfg0.win 11).blk t).view.set := by
  refine ⟨t0_0, flush0_11 _, ?_⟩
  show i ∈ ((View.whole main_v23_1).slice (win0_11.rect t0_0)).set
  rw [View.set_slice_whole, Rect.mem_set_unit]
  intro a
  match a with
  | ⟨0, _⟩ => exact ⟨Nat.zero_le _, by show (i 0).val < 0 * 256 + 256; have hi : (i 0).val < 256 := (i 0).isLt; omega⟩
  | ⟨1, _⟩ => exact ⟨Nat.zero_le _, by show (i 1).val < 0 * 2 + 2; have hi : (i 1).val < 2 := (i 1).isLt; omega⟩
  | ⟨2, _⟩ => exact ⟨Nat.zero_le _, by show (i 2).val < 0 * 512 + 512; have hi : (i 2).val < 512 := (i 2).isLt; omega⟩

/-- The first result array after the run. -/
theorem final10 (c : Dev nD) : (dats m 0 c).arrAt 10 cfg0.N = G10 m c :=
  (dats m 0 c).arrAt_eq_of_cover 10 (G10 m c) (fun t _ => flushed10_eq m c t) cover10

/-- The second result array after the run. -/
theorem final11 (c : Dev nD) : (dats m 0 c).arrAt 11 cfg0.N = G11 m c :=
  (dats m 0 c).arrAt_eq_of_cover 11 (G11 m c) (fun t _ => flushed11_eq m c t) cover11

/-! ## The run -/

/-- Every weakly fair execution of the kernel program terminates with the two result arrays at the specification's
    functions of the arguments, and the arguments as they were: a staged argument by the pipeline's own account of
    an input window's array, an argument no window stages because the region leaves it alone. -/
theorem run : θ_run defs (onTc (τ := τ) (main (F := Ideal))) ⟨m, fun _ => 0, ρ⟩ fun r => ∀ c : Dev nD,
      r.2.mem ((c.tc : Thread nD τ).loc main_v23_0) = G10 m c
      ∧ r.2.mem ((c.tc : Thread nD τ).loc main_v23_1) = G11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 10).trans (final10 m c), ((h c).1 11).trans (final11 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 6).trans (((dats m 0 c).arrAt_in 6 rfl _).trans ((A_eq m c 6).trans (V_main_arg3 m c))),
      ((h c).1 7).trans (((dats m 0 c).arrAt_in 7 rfl _).trans ((A_eq m c 7).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 8).trans (((dats m 0 c).arrAt_in 8 rfl _).trans ((A_eq m c 8).trans (V_main_arg7 m c))),
      ((h c).1 9).trans (((dats m 0 c).arrAt_in 9 rfl _).trans ((A_eq m c 9).trans (V_main_arg8 m c))),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelGru

end
-- ==== Proof.RefValue.lean ====
/-
  The reference program, read against the common specification of one step of the two-layer gated recurrent unit.

  Every operation of the reference is read at one index. The two masked hidden states are the stored state's rows,
  zero where the mask bit is not set. A layer's two matrix products are, at row `p` and gate row `j`, the sums over the
  512 input units of the activation's row `p` against the weight's row `j` (the weight is transposed before the product,
  so the product's right factor at `(k, j)` is the weight at `(j, k)`); the biases are broadcast along the rows; the three
  column slices at offsets 0, 512 and 1024 are the reset, update and candidate rows. The reference adds the input
  side's and the hidden side's affine maps exactly as the specification groups them, so after the sigmoid
  `1 / (1 + exp (−v))` is recognised as the logistic function the two sides agree term for term; no property of the
  inputs is used. The second layer is the same computation on the first layer's result. The second output stacks the
  two layers and exchanges the stacking axis with the rows.
-/
import proofs.«147533_g23510650978938_cont_8to1_1664_20_alg».proof.Proof.Gen.ReferenceIdeal.Read
import proofs.«147533_g23510650978938_cont_8to1_1664_20_alg».proof.Proof.GruSpec

noncomputable section

open scoped BigOperators

namespace Cert.RefGru

open Idealize.ShloMosaic Idealize.ShloMosaic.ValueIdx Cert.ReferenceIdeal Cert.ReferenceIdeal.Read Cert.GruSpec

/-! ## The two masked previous hidden states

Reading the reshaped slice of the masked, transposed state at row `p`, column `k` lands on entry `(p, l, k)` of the
stored state and on the mask bit of row `p`; the flat position `p · 512 + k` splits back into `p` and `k` because
`k < 512`. -/

section Hidden
variable (x1 : (⟨S256x2x512, .f32⟩ : BufTy).Contents (Elt Ideal)) (x2 : (⟨S256x1, .i1⟩ : BufTy).Contents (Elt Ideal))

theorem idx_state0 (p : Fin 256) (k : Fin 512) :
    idx_main_v0 (idx_main_v3 (idx_main_v4 (ix2 p k))) = ix3 p 0 k := by
  funext a
  have hp := p.isLt; have hk := k.isLt
  match a with
  | ⟨0, _⟩ => exact Fin.ext (by show (p.val * 512 + k.val) / 512 % 256 = p.val; omega)
  | ⟨1, _⟩ => exact Fin.ext (by show (0 : Nat) = 0; rfl)
  | ⟨2, _⟩ => exact Fin.ext (by show (p.val * 512 + k.val) % 512 = k.val; omega)

theorem idx_mask0 (p : Fin 256) (k : Fin 512) :
    idx_main_v1 (idx_main_call0_v0 (idx_main_v3 (idx_main_v4 (ix2 p k)))) = ix2 p 0 := by
  funext a
  have hp := p.isLt; have hk := k.isLt
  match a with
  | ⟨0, _⟩ => exact Fin.ext (by show ((0 * 256 + (p.val * 512 + k.val) / 512 % 256) * 1 + 0) / 1 = p.val; omega)
  | ⟨1, _⟩ => exact Fin.ext (by show (0 : Nat) = 0; rfl)

theorem idx_state1 (p : Fin 256) (k : Fin 512) :
    idx_main_v0 (idx_main_v43 (idx_main_v44 (ix2 p k))) = ix3 p 1 k := by
  funext a
  have hp := p.isLt; have hk := k.isLt
  match a with
  | ⟨0, _⟩ => exact Fin.ext (by show (p.val * 512 + k.val) / 512 % 256 = p.val; omega)
  | ⟨1, _⟩ => exact Fin.ext (by show 1 + 0 = 1; rfl)
  | ⟨2, _⟩ => exact Fin.ext (by show (p.val * 512 + k.val) % 512 = k.val; omega)

theorem idx_mask1 (p : Fin 256) (k : Fin 512) :
    idx_main_v1 (idx_main_call0_v0 (idx_main_v43 (idx_main_v44 (ix2 p k)))) = ix2 p 0 := by
  funext a
  have hp := p.isLt; have hk := k.isLt
  match a with
  | ⟨0, _⟩ => exact Fin.ext (by show ((0 * 256 + (p.val * 512 + k.val) / 512 % 256) * 1 + 0) / 1 = p.val; omega)
  | ⟨1, _⟩ => exact Fin.ext (by show (0 : Nat) = 0; rfl)

/-- A select against the zero word on a one-bit condition is the `if` on that bit. -/
theorem select_zero_word (c : BitVec 1) (v : EReal) :
    Scalar.select c v (FloatOps.ofBits (F := Ideal) .f32 0x00000000#32) = if c = 1#1 then v else 0 := by
  by_cases h : c = 1#1
  · rw [h, select_one, if_pos rfl]
  · rw [eq_zero_of_ne_one h, select_zero, if_neg (by decide)]
    exact Ideal.ofBits_zero_f32

theorem hidden0 (p : Fin 256) (k : Fin 512) : val_main_v4 (F := Ideal) x1 x2 (ix2 p k) = hidden x1 x2 0 p k := by
  rw [val_main_v4_apply, val_main_v3_apply, val_main_v2_apply, val_main_call0_v0_apply, val_main_v1_apply, val_main_v0_apply,
    val_main_call0_v1_apply, val_main_cst_apply, idx_state0, idx_mask0]
  exact select_zero_word _ _

theorem hidden1 (p : Fin 256) (k : Fin 512) : val_main_v44 (F := Ideal) x1 x2 (ix2 p k) = hidden x1 x2 1 p k := by
  rw [val_main_v44_apply, val_main_v43_apply, val_main_v2_apply, val_main_call0_v0_apply, val_main_v1_apply, val_main_v0_apply,
    val_main_call0_v1_apply, val_main_cst_apply, idx_state1, idx_mask1]
  exact select_zero_word _ _

end Hidden

/-! ## One layer at one entry, as a function of the six gate pre-activations

The program spells the sigmoid as `1 / (1 + exp (−v))` with the binary32 word of 1.0 for both ones; that word denotes the
extended real `1`, so this is the ideal instance's logistic function. With the sigmoids named, the rest of a layer's
arithmetic is the specification's, operation for operation. -/

/-- The binary32 word of 1.0 denotes `1`. -/
theorem one_word : FloatOps.ofBits (F := Ideal) .f32 0x3F800000#32 = (1 : EReal) :=
  IdealRules.sign_bit.ideal_onePat .f32

/-- The program's spelling of the sigmoid is the logistic function. -/
theorem sigmoid_word (v : EReal) :
    FloatOps.hostDivf (F := Ideal) (φ := .f32) (FloatOps.ofBits .f32 0x3F800000#32)
        (FloatOps.addf (FloatOps.ofBits .f32 0x3F800000#32) (FloatOps.hostUnary .exp (FloatOps.hostNegf v)))
      = Ideal.logistic v := by
  rw [one_word]
  rfl

/-- A layer's entry from its reset, update and candidate pre-activations on the input side (`iR iZ iN`) and on the
    hidden side (`hR hZ hN`) and the previous hidden entry `b`. -/
theorem gates_scalar (iR iZ iN hR hZ hN b : EReal) :
    FloatOps.addf (F := Ideal) (φ := .f32)
        (FloatOps.mulf
          (FloatOps.subf (FloatOps.ofBits .f32 0x3F800000#32)
            (FloatOps.hostDivf (FloatOps.ofBits .f32 0x3F800000#32)
              (FloatOps.addf (FloatOps.ofBits .f32 0x3F800000#32) (FloatOps.hostUnary .exp (FloatOps.hostNegf (FloatOps.addf iZ hZ))))))
          (FloatOps.hostUnary .tanh
            (FloatOps.addf iN
              (FloatOps.mulf
                (FloatOps.hostDivf (FloatOps.ofBits .f32 0x3F800000#32)
                  (FloatOps.addf (FloatOps.ofBits .f32 0x3F800000#32) (FloatOps.hostUnary .exp (FloatOps.hostNegf (FloatOps.addf iR hR)))))
                hN))))
        (FloatOps.mulf
          (FloatOps.hostDivf (FloatOps.ofBits .f32 0x3F800000#32)
            (FloatOps.addf (FloatOps.ofBits .f32 0x3F800000#32) (FloatOps.hostUnary .exp (FloatOps.hostNegf (FloatOps.addf iZ hZ)))))
          b)
      = (one - Ideal.logistic (iZ + hZ)) * Ideal.tanh (iN + Ideal.logistic (iR + hR) * hN) + Ideal.logistic (iZ + hZ) * b := by
  rw [sigmoid_word, sigmoid_word]
  rfl

section Layers

variable (x0 : (⟨S256x512, .f32⟩ : BufTy).Contents (Elt Ideal)) (x1 : (⟨S256x2x512, .f32⟩ : BufTy).Contents (Elt Ideal))
  (x2 : (⟨S256x1, .i1⟩ : BufTy).Contents (Elt Ideal))
  (x3 x4 : (⟨S1536x512, .f32⟩ : BufTy).Contents (Elt Ideal)) (x5 x6 : (⟨S1536, .f32⟩ : BufTy).Contents (Elt Ideal))
  (x7 x8 : (⟨S1536x512, .f32⟩ : BufTy).Contents (Elt Ideal)) (x9 x10 : (⟨S1536, .f32⟩ : BufTy).Contents (Elt Ideal))

/-! ### Layer 0: the indices its operations read -/

theorem lidx_in0 (p : Fin 256) (j : Fin 1536) (k : Fin 512) : lidx_main_v6 (ix2 p j) k = ix2 p k := by
  funext a; match a with | ⟨0, _⟩ => rfl | ⟨1, _⟩ => rfl

theorem ridx_in0 (p : Fin 256) (j : Fin 1536) (k : Fin 512) : idx_main_v5 (ridx_main_v6 (ix2 p j) k) = ix2 j k := by
  funext a; match a with | ⟨0, _⟩ => rfl | ⟨1, _⟩ => rfl

theorem bidx_in0 (p : Fin 256) (j : Fin 1536) : idx_main_v7 (idx_main_v8 (ix2 p j)) = ix1 j := by
  funext a; match a with | ⟨0, _⟩ => rfl

theorem lidx_hid0 (p : Fin 256) (j : Fin 1536) (k : Fin 512) : lidx_main_v11 (ix2 p j) k = ix2 p k := by
  funext a; match a with | ⟨0, _⟩ => rfl | ⟨1, _⟩ => rfl

theorem ridx_hid0 (p : Fin 256) (j : Fin 1536) (k : Fin 512) : idx_main_v10 (ridx_main_v11 (ix2 p j) k) = ix2 j k := by
  funext a; match a with | ⟨0, _⟩ => rfl | ⟨1, _⟩ => rfl

theorem bidx_hid0 (p : Fin 256) (j : Fin 1536) : idx_main_v12 (idx_main_v13 (ix2 p j)) = ix1 j := by
  funext a; match a with | ⟨0, _⟩ => rfl

theorem slice_inR0 (p : Fin 256) (q : Fin 512) : idx_main_v15 (ix2 p q) = ix2 p (colR q) := by
  funext a; match a with | ⟨0, _⟩ => rfl | ⟨1, _⟩ => rfl

theorem slice_inZ0 (p : Fin 256) (q : Fin 512) : idx_main_v16 (ix2 p q) = ix2 p (colZ q) := by
  funext a; match a with | ⟨0, _⟩ => rfl | ⟨1, _⟩ => exact Fin.ext (Nat.add_comm 512 q.val)

theorem slice_inN0 (p : Fin 256) (q : Fin 512) : idx_main_v17 (ix2 p q) = ix2 p (colN q) := by
  funext a; match a with | ⟨0, _⟩ => rfl | ⟨1, _⟩ => exact Fin.ext (Nat.add_comm 1024 q.val)

theorem slice_hidR0 (p : Fin 256) (q : Fin 512) : idx_main_v18 (ix2 p q) = ix2 p (colR q) := by
  funext a; match a with | ⟨0, _⟩ => rfl | ⟨1, _⟩ => rfl

theorem slice_hidZ0 (p : Fin 256) (q : Fin 512) : idx_main_v19 (ix2 p q) = ix2 p (colZ q) := by
  funext a; match a with | ⟨0, _⟩ => rfl | ⟨1, _⟩ => exact Fin.ext (Nat.add_comm 512 q.val)

theorem slice_hidN0 (p : Fin 256) (q : Fin 512) : idx_main_v20 (ix2 p q) = ix2 p (colN q) := by
  funext a; match a with | ⟨0, _⟩ => rfl | ⟨1, _⟩ => exact Fin.ext (Nat.add_comm 1024 q.val)

/-! ### Layer 0: the two affine maps, then the gates -/

/-- The input side's pre-activation of gate row `j`: the input's row `p` against the weight's row `j`, plus the bias. -/
theorem pre_in0 (p : Fin 256) (j : Fin 1536) :
    val_main_v9 (F := Ideal) x0 x3 x5 (ix2 p j) = proj (actOf x0) (wtOf x3) p j + biasOf x5 j := by
  rw [val_main_v9_apply, val_main_v6_apply, val_main_v8_apply, val_main_v7_apply, bidx_in0]
  simp only [val_main_v5_apply, lidx_in0, ridx_in0]
  rfl

/-- The hidden side's pre-activation of gate row `j`. -/
theorem pre_hid0 (p : Fin 256) (j : Fin 1536) :
    val_main_v14 (F := Ideal) x1 x2 x4 x6 (ix2 p j) = proj (hidden x1 x2 0) (wtOf x4) p j + biasOf x6 j := by
  rw [val_main_v14_apply, val_main_v11_apply, val_main_v13_apply, val_main_v12_apply, bidx_hid0]
  simp only [val_main_v10_apply, lidx_hid0, ridx_hid0, hidden0]
  rfl

/-- Layer 0's result at row `p`, column `q` is the specification's. -/
theorem layer0_entry (p : Fin 256) (q : Fin 512) :
    val_main_v42 (F := Ideal) x0 x1 x2 x3 x4 x5 x6 (ix2 p q) = layer0 x0 x1 x2 x3 x4 x5 x6 p q := by
  simp only [val_main_v42_apply, val_main_v40_apply, val_main_v41_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply,
    val_main_cst_0_apply, val_main_cst_1_apply, val_main_cst_2_apply, val_main_cst_3_apply, val_main_cst_4_apply,
    slice_inR0, slice_inZ0, slice_inN0, slice_hidR0, slice_hidZ0, slice_hidN0, pre_in0, pre_hid0, hidden0]
  exact gates_scalar _ _ _ _ _ _ _

/-! ### Layer 1: the indices its operations read -/

theorem lidx_in1 (p : Fin 256) (j : Fin 1536) (k : Fin 512) : lidx_main_v46 (ix2 p j) k = ix2 p k := by
  funext a; match a with | ⟨0, _⟩ => rfl | ⟨1, _⟩ => rfl

theorem ridx_in1 (p : Fin 256) (j : Fin 1536) (k : Fin 512) : idx_main_v45 (ridx_main_v46 (ix2 p j) k) = ix2 j k := by
  funext a; match a with | ⟨0, _⟩ => rfl | ⟨1, _⟩ => rfl

theorem bidx_in1 (p : Fin 256) (j : Fin 1536) : idx_main_v47 (idx_main_v48 (ix2 p j)) = ix1 j := by
  funext a; match a with | ⟨0, _⟩ => rfl

theorem lidx_hid1 (p : Fin 256) (j : Fin 1536) (k : Fin 512) : lidx_main_v51 (ix2 p j) k = ix2 p k := by
  funext a; match a with | ⟨0, _⟩ => rfl | ⟨1, _⟩ => rfl

theorem ridx_hid1 (p : Fin 256) (j : Fin 1536) (k : Fin 512) : idx_main_v50 (ridx_main_v51 (ix2 p j) k) = ix2 j k := by
  funext a; match a with | ⟨0, _⟩ => rfl | ⟨1, _⟩ => rfl

theorem bidx_hid1 (p : Fin 256) (j : Fin 1536) : idx_main_v52 (idx_main_v53 (ix2 p j)) = ix1 j := by
  funext a; match a with | ⟨0, _⟩ => rfl

theorem slice_inR1 (p : Fin 256) (q : Fin 512) : idx_main_v55 (ix2 p q) = ix2 p (colR q) := by
  funext a; match a with | ⟨0, _⟩ => rfl | ⟨1, _⟩ => rfl

theorem slice_inZ1 (p : Fin 256) (q : Fin 512) : idx_main_v56 (ix2 p q) = ix2 p (colZ q) := by
  funext a; match a with | ⟨0, _⟩ => rfl | ⟨1, _⟩ => exact Fin.ext (Nat.add_comm 512 q.val)

theorem slice_inN1 (p : Fin 256) (q : Fin 512) : idx_main_v57 (ix2 p q) = ix2 p (colN q) := by
  funext a; match a with | ⟨0, _⟩ => rfl | ⟨1, _⟩ => exact Fin.ext (Nat.add_comm 1024 q.val)

theorem slice_hidR1 (p : Fin 256) (q : Fin 512) : idx_main_v58 (ix2 p q) = ix2 p (colR q) := by
  funext a; match a with | ⟨0, _⟩ => rfl | ⟨1, _⟩ => rfl

theorem slice_hidZ1 (p : Fin 256) (q : Fin 512) : idx_main_v59 (ix2 p q) = ix2 p (colZ q) := by
  funext a; match a with | ⟨0, _⟩ => rfl | ⟨1, _⟩ => exact Fin.ext (Nat.add_comm 512 q.val)

theorem slice_hidN1 (p : Fin 256) (q : Fin 512) : idx_main_v60 (ix2 p q) = ix2 p (colN q) := by
  funext a; match a with | ⟨0, _⟩ => rfl | ⟨1, _⟩ => exact Fin.ext (Nat.add_comm 1024 q.val)

/-! ### Layer 1: the two affine maps, then the gates -/

/-- The input side's pre-activation of gate row `j`: the input's row `p` against the weight's row `j`, plus the bias. -/
theorem pre_in1 (p : Fin 256) (j : Fin 1536) :
    val_main_v49 (F := Ideal) x0 x1 x2 x3 x4 x5 x6 x7 x9 (ix2 p j) = proj (layer0 x0 x1 x2 x3 x4 x5 x6) (wtOf x7) p j + biasOf x9 j := by
  rw [val_main_v49_apply, val_main_v46_apply, val_main_v48_apply, val_main_v47_apply, bidx_in1]
  simp only [val_main_v45_apply, lidx_in1, ridx_in1, layer0_entry]
  rfl

/-- The hidden side's pre-activation of gate row `j`. -/
theorem pre_hid1 (p : Fin 256) (j : Fin 1536) :
    val_main_v54 (F := Ideal) x1 x2 x8 x10 (ix2 p j) = proj (hidden x1 x2 1) (wtOf x8) p j + biasOf x10 j := by
  rw [val_main_v54_apply, val_main_v51_apply, val_main_v53_apply, val_main_v52_apply, bidx_hid1]
  simp only [val_main_v50_apply, lidx_hid1, ridx_hid1, hidden1]
  rfl

/-- Layer 1's result at row `p`, column `q` is the specification's. -/
theorem layer1_entry (p : Fin 256) (q : Fin 512) :
    val_main_v82 (F := Ideal) x0 x1 x2 x3 x4 x5 x6 x7 x8 x9 x10 (ix2 p q) = layer1 x0 x1 x2 x3 x4 x5 x6 x7 x8 x9 x10 p q := by
  simp only [val_main_v82_apply, val_main_v80_apply, val_main_v81_apply, val_main_v79_apply, val_main_v78_apply, val_main_v77_apply, val_main_v76_apply, val_main_v75_apply, val_main_v74_apply, val_main_v73_apply, val_main_v72_apply, val_main_v71_apply, val_main_v70_apply, val_main_v69_apply, val_main_v68_apply, val_main_v67_apply, val_main_v66_apply, val_main_v65_apply, val_main_v64_apply, val_main_v63_apply, val_main_v62_apply, val_main_v61_apply, val_main_v60_apply, val_main_v59_apply, val_main_v58_apply, val_main_v57_apply, val_main_v56_apply, val_main_v55_apply,
    val_main_cst_5_apply, val_main_cst_6_apply, val_main_cst_7_apply, val_main_cst_8_apply, val_main_cst_9_apply,
    slice_inR1, slice_inZ1, slice_inN1, slice_hidR1, slice_hidZ1, slice_hidN1, pre_in1, pre_hid1, hidden1]
  exact gates_scalar _ _ _ _ _ _ _

/-! ## The two results

The first result is layer 1's. The second stacks the two layers' results on a new leading axis and swaps it with the row
axis: entry `(p, l, q)` is layer `l`'s entry `(p, q)`. -/

/-- The first result is the specification's. -/
theorem ref_out : val_main_v82 (F := Ideal) x0 x1 x2 x3 x4 x5 x6 x7 x8 x9 x10 = Cert.GruSpec.out x0 x1 x2 x3 x4 x5 x6 x7 x8 x9 x10 := by
  funext i
  obtain ⟨p, q, rfl⟩ : ∃ p q, i = ix2 p q := ⟨i 0, i 1, eq_ix2 i⟩
  exact layer1_entry x0 x1 x2 x3 x4 x5 x6 x7 x8 x9 x10 p q

theorem idx_lift0 (p : Fin 256) (q : Fin 512) : idx_main_v83 (ix3 (0 : Fin 1) p q) = ix2 p q := by
  funext a; match a with | ⟨0, _⟩ => rfl | ⟨1, _⟩ => rfl

theorem idx_lift1 (p : Fin 256) (q : Fin 512) : idx_main_v84 (ix3 (0 : Fin 1) p q) = ix2 p q := by
  funext a; match a with | ⟨0, _⟩ => rfl | ⟨1, _⟩ => rfl

/-- Row 0 of the stacked array is layer 0's result. -/
theorem stacked0 (p : Fin 256) (q : Fin 512) :
    val_main_v85 (F := Ideal) x0 x1 x2 x3 x4 x5 x6 x7 x8 x9 x10 (ix3 (0 : Fin 2) p q) = layer0 x0 x1 x2 x3 x4 x5 x6 p q := by
  unfold val_main_v85
  rw [concatenate_pair_apply_left 0 _ _ Gen.concatenates_S1x256x512_S1x256x512_S2x256x512_d0 (ix3 (0 : Fin 2) p q) rfl
    (ix3 (0 : Fin 1) p q) (fun b => match b with | ⟨0, _⟩ => rfl | ⟨1, _⟩ => rfl | ⟨2, _⟩ => rfl)]
  rw [val_main_v83_apply, idx_lift0, layer0_entry]

/-- Row 1 of the stacked array is layer 1's result. -/
theorem stacked1 (p : Fin 256) (q : Fin 512) :
    val_main_v85 (F := Ideal) x0 x1 x2 x3 x4 x5 x6 x7 x8 x9 x10 (ix3 (1 : Fin 2) p q) = layer1 x0 x1 x2 x3 x4 x5 x6 x7 x8 x9 x10 p q := by
  unfold val_main_v85
  rw [concatenate_pair_apply_right 0 _ _ Gen.concatenates_S1x256x512_S1x256x512_S2x256x512_d0 (ix3 (1 : Fin 2) p q) rfl rfl
    (ix3 (0 : Fin 1) p q)
    (fun b => match b with | ⟨0, _⟩ => fun h => absurd rfl h | ⟨1, _⟩ => fun _ => rfl | ⟨2, _⟩ => fun _ => rfl) rfl]
  rw [val_main_v84_apply, idx_lift1, layer1_entry]

theorem idx_swap (p : Fin 256) (l : Fin 2) (q : Fin 512) : idx_main_v86 (ix3 p l q) = ix3 l p q := by
  funext a; match a with | ⟨0, _⟩ => rfl | ⟨1, _⟩ => rfl | ⟨2, _⟩ => rfl

/-- The second result is the specification's. -/
theorem ref_newHidden : val_main_v86 (F := Ideal) x0 x1 x2 x3 x4 x5 x6 x7 x8 x9 x10 = Cert.GruSpec.newHidden x0 x1 x2 x3 x4 x5 x6 x7 x8 x9 x10 := by
  funext i
  obtain ⟨p, l, q, rfl⟩ : ∃ p l q, i = ix3 p l q := ⟨i 0, i 1, i 2, eq_ix3 i⟩
  rw [val_main_v86_apply, idx_swap]
  match l with
  | ⟨0, _⟩ => exact (stacked0 x0 x1 x2 x3 x4 x5 x6 x7 x8 x9 x10 p q).trans (if_pos rfl).symm
  | ⟨1, _⟩ => exact (stacked1 x0 x1 x2 x3 x4 x5 x6 x7 x8 x9 x10 p q).trans (if_neg Nat.one_ne_zero).symm

end Layers

end Cert.RefGru

end
-- ==== Proof.lean ====
/-
  One step of a two-layer gated recurrent unit: the kernel computes both layers in one gridless step over whole
  arrays, the reference computes them with jnp on the host; at the ideal instance both end with the same two
  arrays, the function `Cert.GruSpec` states once over plain coordinates.

  The two programs differ only in ways the extended reals do not see: the kernel multiplies the hidden state by the
  mask read as 1 or 0 where the reference selects the state or zero (`x · 1 = x`, `x · 0 = 0` for every extended
  real); the kernel adds the reset and update gates' two biases together on the host and the two weight products
  together in the step, where the reference adds each bias to its own product first (a sum of four terms regrouped);
  the kernel's sigmoid is one operation where the reference spells `1 / (1 + exp (−v))` (one function on the
  extended reals); the kernel contracts against the weights' second axis directly where the reference transposes
  them first (the same sum over the 512 input units, in the same order). No finiteness of the inputs is used.

  The frames of the two kernel programs and the reference's run are the generated modules'; the ideal pass rewrote
  nothing, so there is nothing to preserve.
-/
import proofs.«147533_g23510650978938_cont_8to1_1664_20_alg».proof.Defs
import proofs.«147533_g23510650978938_cont_8to1_1664_20_alg».proof.Proof.Gen.Kernel
import proofs.«147533_g23510650978938_cont_8to1_1664_20_alg».proof.Proof.Gen.Kernel.Skeleton
import proofs.«147533_g23510650978938_cont_8to1_1664_20_alg».proof.Proof.Gen.Kernel.Launch
import proofs.«147533_g23510650978938_cont_8to1_1664_20_alg».proof.Proof.Gen.Kernel.Points
import proofs.«147533_g23510650978938_cont_8to1_1664_20_alg».proof.Proof.Gen.Kernel.Frame
import proofs.«147533_g23510650978938_cont_8to1_1664_20_alg».proof.Proof.Gen.KernelIdeal
import proofs.«147533_g23510650978938_cont_8to1_1664_20_alg».proof.Proof.Gen.KernelIdeal.Skeleton
import proofs.«147533_g23510650978938_cont_8to1_1664_20_alg».proof.Proof.Gen.KernelIdeal.Launch
import proofs.«147533_g23510650978938_cont_8to1_1664_20_alg».proof.Proof.Gen.KernelIdeal.Points
import proofs.«147533_g23510650978938_cont_8to1_1664_20_alg».proof.Proof.Gen.KernelIdeal.Frame
import proofs.«147533_g23510650978938_cont_8to1_1664_20_alg».proof.Proof.Gen.ReferenceIdeal
import proofs.«147533_g23510650978938_cont_8to1_1664_20_alg».proof.Proof.Gen.Pre_finite_inputs
import proofs.«147533_g23510650978938_cont_8to1_1664_20_alg».proof.Proof.Gen.ReferenceIdeal.Run
import proofs.«147533_g23510650978938_cont_8to1_1664_20_alg».proof.Proof.Gen.ReferenceIdeal.Read
import proofs.«147533_g23510650978938_cont_8to1_1664_20_alg».proof.Proof.KernelRun
import proofs.«147533_g23510650978938_cont_8to1_1664_20_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the specification's two arrays of the arguments, which agree. -/
theorem algebraic : Cert.algebraic_KernelIdeal_ReferenceIdeal := by
  intro m ρ m' ρ' _ hagree
  refine ⟨fun c => Cert.KernelGru.G10 m c, fun c => Cert.KernelGru.G11 m c, Cert.KernelGru.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v82_eq, Cert.RefGru.ref_out, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    rfl
  · rw [Cert.ReferenceIdeal.Read.val_main_v86_eq, Cert.RefGru.ref_newHidden, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
